-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x1024x1024 .f32) (main_arg1 : FVec F S3072x1024 .f32) (main_arg2 : FVec F S1024x1024 .f32) (main_arg3 : FVec F S1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x1024x1024 : Shape := ⟨3, ![8, 1024, 1024]⟩
abbrev S3072x1024 : Shape := ⟨2, ![3072, 1024]⟩
abbrev S1024x1024 : Shape := ⟨2, ![1024, 1024]⟩
abbrev S1024 : Shape := ⟨1, ![1024]⟩
abbrev S8192x1024 : Shape := ⟨2, ![8192, 1024]⟩
abbrev S1024x3072 : Shape := ⟨2, ![1024, 3072]⟩
abbrev S8192x3072 : Shape := ⟨2, ![8192, 3072]⟩
abbrev S512x1024 : Shape := ⟨2, ![512, 1024]⟩
abbrev S8x3x16x1024x64 : Shape := ⟨5, ![8, 3, 16, 1024, 64]⟩
abbrev S8x1x16x1024x64 : Shape := ⟨5, ![8, 1, 16, 1024, 64]⟩
abbrev S8x16x1024x64 : Shape := ⟨4, ![8, 16, 1024, 64]⟩
abbrev S1x2x1024x64 : Shape := ⟨4, ![1, 2, 1024, 64]⟩
abbrev S1x1024x128 : Shape := ⟨3, ![1, 1024, 128]⟩
abbrev S1x1x1024x64 : Shape := ⟨4, ![1, 1, 1024, 64]⟩
abbrev S1024x64 : Shape := ⟨2, ![1024, 64]⟩
abbrev S1024x1 : Shape := ⟨2, ![1024, 1]⟩
abbrev S1024x128 : Shape := ⟨2, ![1024, 128]⟩
abbrev S1x1024 : Shape := ⟨2, ![1, 1024]⟩

abbrev nBuf : Space → Nat
  | .hbm => 20
  | .vmem => 20
  | .smem => 0
  | _ => 0

abbrev bufTy : (tb : Table) → Fin (tcTables nBuf tb) → BufTy
  | .hbm, ⟨0, _⟩ => ⟨S8x1024x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S8192x1024, .f32⟩
  | .hbm, ⟨5, _⟩ => ⟨S1024x3072, .f32⟩
  | .hbm, ⟨6, _⟩ => ⟨S8192x3072, .bf16⟩
  | .hbm, ⟨7, _⟩ => ⟨S8x3x16x1024x64, .bf16⟩
  | .hbm, ⟨8, _⟩ => ⟨S8x1x16x1024x64, .bf16⟩
  | .hbm, ⟨9, _⟩ => ⟨S8x16x1024x64, .bf16⟩
  | .hbm, ⟨10, _⟩ => ⟨S8x1x16x1024x64, .bf16⟩
  | .hbm, ⟨11, _⟩ => ⟨S8x16x1024x64, .bf16⟩
  | .hbm, ⟨12, _⟩ => ⟨S8x1x16x1024x64, .bf16⟩
  | .hbm, ⟨13, _⟩ => ⟨S8x16x1024x64, .bf16⟩
  | .hbm, ⟨14, _⟩ => ⟨S8x1024x1024, .bf16⟩
  | .hbm, ⟨15, _⟩ => ⟨S8192x1024, .bf16⟩
  | .hbm, ⟨16, _⟩ => ⟨S1024x1024, .f32⟩
  | .hbm, ⟨17, _⟩ => ⟨S1x1024, .f32⟩
  | .hbm, ⟨18, _⟩ => ⟨S8192x1024, .f32⟩
  | .hbm, ⟨19, _⟩ => ⟨S8x1024x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .bf16⟩
  | .local _ .vmem, ⟨5, _⟩ => ⟨S512x1024, .bf16⟩
  | .local _ .vmem, ⟨6, _⟩ => ⟨S1x2x1024x64, .bf16⟩
  | .local _ .vmem, ⟨7, _⟩ => ⟨S1x2x1024x64, .bf16⟩
  | .local _ .vmem, ⟨8, _⟩ => ⟨S1x2x1024x64, .bf16⟩
  | .local _ .vmem, ⟨9, _⟩ => ⟨S1x2x1024x64, .bf16⟩
  | .local _ .vmem, ⟨10, _⟩ => ⟨S1x2x1024x64, .bf16⟩
  | .local _ .vmem, ⟨11, _⟩ => ⟨S1x2x1024x64, .bf16⟩
  | .local _ .vmem, ⟨12, _⟩ => ⟨S1x1024x128, .bf16⟩
  | .local _ .vmem, ⟨13, _⟩ => ⟨S1x1024x128, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x2x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![1, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S8x1024x1024_S8192x1024 : S8x1024x1024.ShapeCasts S8192x1024
  transposes_S3072x1024_S1024x3072_1_0 : S3072x1024.Transposes [1, 0] S1024x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  shapeCasts_S8192x3072_S8x3x16x1024x64 : S8192x3072.ShapeCasts S8x3x16x1024x64
  slices_S8x3x16x1024x64_S8x1x16x1024x64_0_0_0_0_0 : S8x3x16x1024x64.Slices ![0, 0, 0, 0, 0] S8x1x16x1024x64
  shapeCasts_S8x1x16x1024x64_S8x16x1024x64 : S8x1x16x1024x64.ShapeCasts S8x16x1024x64
  slices_S8x3x16x1024x64_S8x1x16x1024x64_0_1_0_0_0 : S8x3x16x1024x64.Slices ![0, 1, 0, 0, 0] S8x1x16x1024x64
  slices_S8x3x16x1024x64_S8x1x16x1024x64_0_2_0_0_0 : S8x3x16x1024x64.Slices ![0, 2, 0, 0, 0] S8x1x16x1024x64
  inb_S1x2x1024x64_S1x1x1024x64_0_0_0_0 : ∀ a, (![0, 0, 0, 0] : Fin 4 → Nat) a + S1x1x1024x64.size a ≤ S1x2x1024x64.size a
  h_S1x1x1024x64 : 0 < S1x1x1024x64.numel
  shapeCasts_S1x1x1024x64_S1024x64 : S1x1x1024x64.ShapeCasts S1024x64
  reduces_S1024x1024_S1024 : S1024x1024.Reduces [1] S1024
  shapeCasts_S1024_S1024x1 : S1024.ShapeCasts S1024x1
  broadcasts_S1024x1_S1024x1024 : S1024x1.Broadcasts S1024x1024
  inb_S1x2x1024x64_S1x1x1024x64_0_1_0_0 : ∀ a, (![0, 1, 0, 0] : Fin 4 → Nat) a + S1x1x1024x64.size a ≤ S1x2x1024x64.size a
  concatenates_S1024x64_S1024x64_S1024x128_d1 : Shape.Concatenates [S1024x64, S1024x64] S1024x128 1
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  packedbf16_S1x1024x128_S1x1024x128_0_0_0 : (Rect.unit (s := S1x1024x128) ![0, 0, 0] S1x1024x128.size inb_S1x1024x128_S1x1024x128_0_0_0).PackedRows (EltTy.packing .bf16)
  transposes_S1024x1024_S1024x1024_1_0 : S1024x1024.Transposes [1, 0] S1024x1024
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x1024_S8x1024x1024 : S8192x1024.ShapeCasts S8x1024x1024
  dot_S512x1024_S1024x1024_S512x1024_1_0_0_1_n_n_wf : DotDims.WF S512x1024 S1024x1024 S512x1024 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .f32 = 32 ∨ (Rect.block (s := S1024x3072) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x3072.size a
  hwx0_2 : ∀ i : grid0.Coords, EltTy.bits .bf16 = 32 ∨ (Rect.block (s := S8192x3072) S512x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2x1024x64.size a ≤ S8x16x1024x64.size a
  hwx1_0 : ∀ i : grid1.Coords, EltTy.bits .bf16 = 32 ∨ (Rect.block (s := S8x16x1024x64) S1x2x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2x1024x64.size a ≤ S8x16x1024x64.size a
  hwx1_1 : ∀ i : grid1.Coords, EltTy.bits .bf16 = 32 ∨ (Rect.block (s := S8x16x1024x64) S1x2x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2x1024x64.size a ≤ S8x16x1024x64.size a
  hwx1_2 : ∀ i : grid1.Coords, EltTy.bits .bf16 = 32 ∨ (Rect.block (s := S8x16x1024x64) S1x2x1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S8x1024x1024.size a
  hwx1_3 : ∀ i : grid1.Coords, EltTy.bits .bf16 = 32 ∨ (Rect.block (s := S8x1024x1024) S1x1024x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S1x2x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x2x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x2x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v11) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S1024x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x1024.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x1024x1024 : Shape := ⟨3, ![8, 1024, 1024]⟩
abbrev S3072x1024 : Shape := ⟨2, ![3072, 1024]⟩
abbrev S1024x1024 : Shape := ⟨2, ![1024, 1024]⟩
abbrev S1024 : Shape := ⟨1, ![1024]⟩
abbrev S8x1024x3072 : Shape := ⟨3, ![8, 1024, 3072]⟩
abbrev S8x3x16x1024x64 : Shape := ⟨5, ![8, 3, 16, 1024, 64]⟩
abbrev S8x1x16x1024x64 : Shape := ⟨5, ![8, 1, 16, 1024, 64]⟩
abbrev S8x16x1024x64 : Shape := ⟨4, ![8, 16, 1024, 64]⟩
abbrev S8x16x1024x1024 : Shape := ⟨4, ![8, 16, 1024, 1024]⟩
abbrev S_ : Shape := ⟨0, ![]⟩
abbrev S8x16x1024 : Shape := ⟨3, ![8, 16, 1024]⟩
abbrev S8x16x1024x1 : Shape := ⟨4, ![8, 16, 1024, 1]⟩
abbrev S8x1024x16x64 : Shape := ⟨4, ![8, 1024, 16, 64]⟩
abbrev S1x1x1024 : Shape := ⟨3, ![1, 1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S8x1024x3072, .f32⟩
  | .hbm, ⟨5, _⟩ => ⟨S8x3x16x1024x64, .f32⟩
  | .hbm, ⟨6, _⟩ => ⟨S8x1x16x1024x64, .f32⟩
  | .hbm, ⟨7, _⟩ => ⟨S8x16x1024x64, .f32⟩
  | .hbm, ⟨8, _⟩ => ⟨S8x1x16x1024x64, .f32⟩
  | .hbm, ⟨9, _⟩ => ⟨S8x16x1024x64, .f32⟩
  | .hbm, ⟨10, _⟩ => ⟨S8x1x16x1024x64, .f32⟩
  | .hbm, ⟨11, _⟩ => ⟨S8x16x1024x64, .f32⟩
  | .hbm, ⟨12, _⟩ => ⟨S8x16x1024x1024, .f32⟩
  | .hbm, ⟨13, _⟩ => ⟨S_, .f32⟩
  | .hbm, ⟨14, _⟩ => ⟨S8x16x1024x1024, .f32⟩
  | .hbm, ⟨15, _⟩ => ⟨S8x16x1024x1024, .f32⟩
  | .hbm, ⟨16, _⟩ => ⟨S_, .f32⟩
  | .hbm, ⟨17, _⟩ => ⟨S8x16x1024, .f32⟩
  | .hbm, ⟨18, _⟩ => ⟨S_, .f32⟩
  | .hbm, ⟨19, _⟩ => ⟨S8x16x1024, .f32⟩
  | .hbm, ⟨20, _⟩ => ⟨S8x16x1024, .f32⟩
  | .hbm, ⟨21, _⟩ => ⟨S8x16x1024x1, .f32⟩
  | .hbm, ⟨22, _⟩ => ⟨S8x16x1024x1024, .f32⟩
  | .hbm, ⟨23, _⟩ => ⟨S8x16x1024x1024, .f32⟩
  | .hbm, ⟨24, _⟩ => ⟨S8x16x1024x1024, .f32⟩
  | .hbm, ⟨25, _⟩ => ⟨S_, .f32⟩
  | .hbm, ⟨26, _⟩ => ⟨S8x16x1024, .f32⟩
  | .hbm, ⟨27, _⟩ => ⟨S8x16x1024x1, .f32⟩
  | .hbm, ⟨28, _⟩ => ⟨S8x16x1024x1024, .f32⟩
  | .hbm, ⟨29, _⟩ => ⟨S8x16x1024x1024, .f32⟩
  | .hbm, ⟨30, _⟩ => ⟨S8x16x1024x64, .f32⟩
  | .hbm, ⟨31, _⟩ => ⟨S8x1024x16x64, .f32⟩
  | .hbm, ⟨32, _⟩ => ⟨S8x1024x1024, .f32⟩
  | .hbm, ⟨33, _⟩ => ⟨S8x1024x1024, .f32⟩
  | .hbm, ⟨34, _⟩ => ⟨S1x1x1024, .f32⟩
  | .hbm, ⟨35, _⟩ => ⟨S8x1024x1024, .f32⟩
  | .hbm, ⟨36, _⟩ => ⟨S8x1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]

class Facts₀ : Prop where
  shapeCasts_S8x1024x3072_S8x3x16x1024x64 : S8x1024x3072.ShapeCasts S8x3x16x1024x64
  slices_S8x3x16x1024x64_S8x1x16x1024x64_0_0_0_0_0 : S8x3x16x1024x64.Slices ![0, 0, 0, 0, 0] S8x1x16x1024x64
  shapeCasts_S8x1x16x1024x64_S8x16x1024x64 : S8x1x16x1024x64.ShapeCasts S8x16x1024x64
  slices_S8x3x16x1024x64_S8x1x16x1024x64_0_1_0_0_0 : S8x3x16x1024x64.Slices ![0, 1, 0, 0, 0] S8x1x16x1024x64
  slices_S8x3x16x1024x64_S8x1x16x1024x64_0_2_0_0_0 : S8x3x16x1024x64.Slices ![0, 2, 0, 0, 0] S8x1x16x1024x64
  bcast_S_S8x16x1024x1024 : S_.BroadcastsInDim S8x16x1024x1024 (![] : Fin 0 → Fin S8x16x1024x1024.rank)
  reducesTo_S8x16x1024x1024_S8x16x1024_d3 : S8x16x1024x1024.ReducesTo [3] S8x16x1024
  h_S_ : 0 < S_.numel
  bcast_S_S8x16x1024 : S_.BroadcastsInDim S8x16x1024 (![] : Fin 0 → Fin S8x16x1024.rank)
  bcast_S8x16x1024_S8x16x1024x1_0_1_2 : S8x16x1024.BroadcastsInDim S8x16x1024x1 (![0, 1, 2] : Fin 3 → Fin S8x16x1024x1.rank)
  bcast_S8x16x1024x1_S8x16x1024x1024_0_1_2_3 : S8x16x1024x1.BroadcastsInDim S8x16x1024x1024 (![0, 1, 2, 3] : Fin 4 → Fin S8x16x1024x1024.rank)
  transposes_S8x16x1024x64_S8x1024x16x64_0_2_1_3 : S8x16x1024x64.Transposes [0, 2, 1, 3] S8x1024x16x64
  shapeCasts_S8x1024x16x64_S8x1024x1024 : S8x1024x16x64.ShapeCasts S8x1024x1024
  bcast_S1024_S1x1x1024_2 : S1024.BroadcastsInDim S1x1x1024 (![2] : Fin 1 → Fin S1x1x1024.rank)
  bcast_S1x1x1024_S8x1024x1024_0_1_2 : S1x1x1024.BroadcastsInDim S8x1024x1024 (![0, 1, 2] : Fin 3 → Fin S8x1024x1024.rank)
  dot_S8x1024x1024_S3072x1024_S8x1024x3072_2_1_01_0_n_n_wf : DotDims.WF S8x1024x1024 S3072x1024 S8x1024x3072 [2] [1] [0, 1] [0] [] []
  dot_S8x16x1024x64_S8x16x1024x64_S8x16x1024x1024_3_3_2_2_01_01_wf : DotDims.WF S8x16x1024x64 S8x16x1024x64 S8x16x1024x1024 [3] [3] [2] [2] [0, 1] [0, 1]
  dot_S8x16x1024x1024_S8x16x1024x64_S8x16x1024x64_3_2_2_3_01_01_wf : DotDims.WF S8x16x1024x1024 S8x16x1024x64 S8x16x1024x64 [3] [2] [2] [3] [0, 1] [0, 1]
  dot_S8x1024x1024_S1024x1024_S8x1024x1024_2_1_01_0_n_n_wf : DotDims.WF S8x1024x1024 S1024x1024 S8x1024x1024 [2] [1] [0, 1] [0] [] []

variable [Facts₀]

def dot_S8x1024x1024_S3072x1024_S8x1024x3072_2_1_01_0_n_n : DotDims S8x1024x1024 S3072x1024 S8x1024x3072 where
  lhsContracting := [2]
  rhsContracting := [1]
  lhsNonContracting := [0, 1]
  rhsNonContracting := [0]
  lhsBatch := []
  rhsBatch := []
  wf := dot_S8x1024x1024_S3072x1024_S8x1024x3072_2_1_01_0_n_n_wf
def dot_S8x16x1024x64_S8x16x1024x64_S8x16x1024x1024_3_3_2_2_01_01 : DotDims S8x16x1024x64 S8x16x1024x64 S8x16x1024x1024 where
  lhsContracting := [3]
  rhsContracting := [3]
  lhsNonContracting := [2]
  rhsNonContracting := [2]
  lhsBatch := [0, 1]
  rhsBatch := [0, 1]
  wf := dot_S8x16x1024x64_S8x16x1024x64_S8x16x1024x1024_3_3_2_2_01_01_wf
def dot_S8x16x1024x1024_S8x16x1024x64_S8x16x1024x64_3_2_2_3_01_01 : DotDims S8x16x1024x1024 S8x16x1024x64 S8x16x1024x64 where
  lhsContracting := [3]
  rhsContracting := [2]
  lhsNonContracting := [2]
  rhsNonContracting := [3]
  lhsBatch := [0, 1]
  rhsBatch := [0, 1]
  wf := dot_S8x16x1024x1024_S8x16x1024x64_S8x16x1024x64_3_2_2_3_01_01_wf
def dot_S8x1024x1024_S1024x1024_S8x1024x1024_2_1_01_0_n_n : DotDims S8x1024x1024 S1024x1024 S8x1024x1024 where
  lhsContracting := [2]
  rhsContracting := [1]
  lhsNonContracting := [0, 1]
  rhsNonContracting := [0]
  lhsBatch := []
  rhsBatch := []
  wf := dot_S8x1024x1024_S1024x1024_S8x1024x1024_2_1_01_0_n_n_wf

class Facts : Prop extends Facts₀ where

variable [Facts]
-- ==== Proof.Spec.lean ====
/-
  The mathematics both programs compute, stated once over the extended reals and over literal shapes, with no
  program in sight.

  * `proj A B`        : a matrix product over a contraction of length 1024, `(A·B)[r, e] = ∑ₖ A[r, k] · B[k, e]`.
  * `projBias A B β`  : the same product with a row vector added to every row, `(A·B)[r, e] + β[0, e]`.
  * `qkv x w`         : the first projection in the batch layout, `∑ₖ x[b, n, k] · w[e, k]`.
  * `outProj y w β`   : the last projection in the batch layout, `∑ₖ y[b, n, k] · w[e, k] + β[e]`.
  * `att q k v`       : softmax attention per head, written head-major into a [8, 1024, 1024] array: column
                         `c` of row `(b, n)` belongs to head `c / 64`, lane `c % 64`. The scores are
                         `s[m] = ∑_d (q[b,h,n,d] · σ) · k[b,h,m,d]` with `σ` the scale; the weights are
                         `exp (s[m] − max s) / ∑ₘ' exp (s[m'] − max s)`; the output is `∑ₘ weight[m] · v[b,h,m,d]`.
-/
import Idealize.ShloMosaic.PureOps.Ideal.Laws
import Idealize.ShloMosaic.Lib.ValueIdx

noncomputable section

namespace Cert.Spec

open Idealize.ShloMosaic Idealize.ShloMosaic.ValueIdx

/-- A two-axis array of extended reals. -/
abbrev Mat (m n : Nat) : Type := (⟨2, ![m, n]⟩ : Shape).Idx → EReal
/-- The per-head arrays q, k, v: batch, head, position, lane. -/
abbrev Heads : Type := (⟨4, ![8, 16, 1024, 64]⟩ : Shape).Idx → EReal
/-- A batch of rows: batch, position, feature. -/
abbrev Rows (n : Nat) : Type := (⟨3, ![8, 1024, n]⟩ : Shape).Idx → EReal

/-- The product of an M × 1024 and a 1024 × N matrix. -/
def proj {M N : Nat} (A : Mat M 1024) (B : Mat 1024 N) : Mat M N :=
  fun i => ∑ k : Fin 1024, A (ix2 (i 0) k) * B (ix2 k (i 1))

theorem proj_apply {M N : Nat} (A : Mat M 1024) (B : Mat 1024 N) (r : Fin M) (e : Fin N) :
    proj A B (ix2 r e) = ∑ k : Fin 1024, A (ix2 r k) * B (ix2 k e) := rfl

/-- The same product with the one-row matrix `β` added to every row. -/
def projBias {M N : Nat} (A : Mat M 1024) (B : Mat 1024 N) (β : Mat 1 N) : Mat M N :=
  fun i => (∑ k : Fin 1024, A (ix2 (i 0) k) * B (ix2 k (i 1))) + β (ix2 0 (i 1))

theorem projBias_apply {M N : Nat} (A : Mat M 1024) (B : Mat 1024 N) (β : Mat 1 N) (r : Fin M) (e : Fin N) :
    projBias A B β (ix2 r e) = (∑ k : Fin 1024, A (ix2 r k) * B (ix2 k e)) + β (ix2 0 e) := rfl

/-- The first projection: every row of every batch against every row of the weight. -/
def qkv (x : Rows 1024) (w : Mat 3072 1024) : Rows 3072 :=
  fun i => ∑ k : Fin 1024, x (ix3 (i 0) (i 1) k) * w (ix2 (i 2) k)

theorem qkv_apply (x : Rows 1024) (w : Mat 3072 1024) (b : Fin 8) (n : Fin 1024) (e : Fin 3072) :
    qkv x w (ix3 b n e) = ∑ k : Fin 1024, x (ix3 b n k) * w (ix2 e k) := rfl

/-- The last projection with its bias. -/
def outProj (y : Rows 1024) (w : Mat 1024 1024) (β : (⟨1, ![1024]⟩ : Shape).Idx → EReal) : Rows 1024 :=
  fun i => (∑ k : Fin 1024, y (ix3 (i 0) (i 1) k) * w (ix2 (i 2) k)) + β (ix1 (i 2))

theorem outProj_apply (y : Rows 1024) (w : Mat 1024 1024) (β : (⟨1, ![1024]⟩ : Shape).Idx → EReal)
    (b : Fin 8) (n : Fin 1024) (e : Fin 1024) :
    outProj y w β (ix3 b n e) = (∑ k : Fin 1024, y (ix3 b n k) * w (ix2 e k)) + β (ix1 e) := rfl

/-! ## Attention -/

/-- The softmax scale, one eighth, as the sixteen-bit word that spells it. -/
def scale : EReal := Ideal.ofBits .bf16 0x3E00#16

/-- The scaled score of query position `n` against key position `m` in head `(b, h)`; the scale multiplies the query. -/
def score (q k : Heads) (b : Fin 8) (h : Fin 16) (n m : Fin 1024) : EReal :=
  ∑ d : Fin 64, (q (ix4 b h n d) * scale) * k (ix4 b h m d)

/-- The largest entry of a row of scores, folded from −∞. -/
def rowMax (s : Fin 1024 → EReal) : EReal :=
  (Finset.univ : Finset (Fin 1024)).fold max (Ideal.ofBits .f32 0xFF800000#32) s

/-- The unnormalised weight `exp (s m − max s)`. -/
def expShift (s : Fin 1024 → EReal) (m : Fin 1024) : EReal := Ideal.exp (s m - rowMax s)

/-- The softmax weight of key position `m`. -/
def weight (s : Fin 1024 → EReal) (m : Fin 1024) : EReal :=
  Ideal.div (expShift s m) (∑ m' : Fin 1024, expShift s m')

/-- One lane of one head's output at one query position. -/
def headOut (q k v : Heads) (b : Fin 8) (h : Fin 16) (n : Fin 1024) (d : Fin 64) : EReal :=
  ∑ m : Fin 1024, weight (score q k b h n) m * v (ix4 b h m d)

/-- Column `c` of a 1024-wide row is lane `c % 64` of head `c / 64`. -/
def headOf (c : Fin 1024) : Fin 16 := ⟨c.val / 64, by have := c.isLt; omega⟩
def laneOf (c : Fin 1024) : Fin 64 := ⟨c.val % 64, Nat.mod_lt _ (by norm_num)⟩

/-- Attention with the heads laid side by side along the feature axis. -/
def att (q k v : Heads) : Rows 1024 :=
  fun i => headOut q k v (i 0) (headOf (i 2)) (i 1) (laneOf (i 2))

theorem att_apply (q k v : Heads) (b : Fin 8) (n : Fin 1024) (c : Fin 1024) :
    att q k v (ix3 b n c) = headOut q k v b (headOf c) n (laneOf c) := rfl

end Cert.Spec

end
-- ==== Proof.Fold.lean ====
/-
  The host operations between the regions, read as functions of the contents they start from.

  The stretch before the first region flattens the input to 8192 rows and transposes the first weight; the stretch
  after it reshapes the 8192 x 3072 projection to batch x {q, k, v} x head x position x lane and cuts the three
  per-head arrays out; the stretch before the last region flattens the attention output, transposes the second
  weight and makes the bias a one-row matrix; the last stretch gives the result its batch layout back. None of
  them writes an argument array.
-/
import proofs.«102136_j2851858284976_2_alg».proof.Proof.Gen.KernelIdeal.Launch
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Facts₀

variable {F : FTy → Type} [FloatOps F]

/-! ## Before the first region -/

theorem rows_in (W : Valuation τ sig (Elt F)) :
    StableHlo.after (Gen.hostOps0 (F := F)) W (Proc.devRef .tc main_v0)
      = shapeCast S8192x1024 (W (Proc.devRef .tc main_arg0)) shapeCasts_S8x1024x1024_S8192x1024 := by
  after_results <;> rfl

theorem weight_in (W : Valuation τ sig (Elt F)) :
    StableHlo.after (Gen.hostOps0 (F := F)) W (Proc.devRef .tc main_v1)
      = transpose S1024x3072 [1, 0] (W (Proc.devRef .tc main_arg1)) transposes_S3072x1024_S1024x3072_1_0 := by
  after_results <;> rfl

theorem keep0_arg2 (W : Valuation τ sig (Elt F)) :
    StableHlo.after (Gen.hostOps0 (F := F)) W (Proc.devRef .tc main_arg2) = W (Proc.devRef .tc main_arg2) := by
  after_results

theorem keep0_arg3 (W : Valuation τ sig (Elt F)) :
    StableHlo.after (Gen.hostOps0 (F := F)) W (Proc.devRef .tc main_arg3) = W (Proc.devRef .tc main_arg3) := by
  after_results

/-! ## Between the first and the second region -/

/-- One of q, k, v: the slice at position `j` of the second axis of the five-axis array, its unit axis dropped. -/
abbrev part (P : (⟨S8192x3072, .bf16⟩ : BufTy).Contents (Elt F)) (off : Fin 5 → Nat)
    (h : S8x3x16x1024x64.Slices off S8x1x16x1024x64) : (⟨S8x16x1024x64, .bf16⟩ : BufTy).Contents (Elt F) :=
  shapeCast S8x16x1024x64 (extractStridedSlice S8x1x16x1024x64 off
    (shapeCast S8x3x16x1024x64 P shapeCasts_S8192x3072_S8x3x16x1024x64) h) shapeCasts_S8x1x16x1024x64_S8x16x1024x64

theorem queries (W : Valuation τ sig (Elt F)) :
    StableHlo.after (Gen.hostOps1 (F := F)) W (Proc.devRef .tc main_v5)
      = part (W (Proc.devRef .tc main_v2)) ![0, 0, 0, 0, 0] slices_S8x3x16x1024x64_S8x1x16x1024x64_0_0_0_0_0 := by
  after_results <;> rfl

theorem keys (W : Valuation τ sig (Elt F)) :
    StableHlo.after (Gen.hostOps1 (F := F)) W (Proc.devRef .tc main_v7)
      = part (W (Proc.devRef .tc main_v2)) ![0, 1, 0, 0, 0] slices_S8x3x16x1024x64_S8x1x16x1024x64_0_1_0_0_0 := by
  after_results <;> rfl

theorem values (W : Valuation τ sig (Elt F)) :
    StableHlo.after (Gen.hostOps1 (F := F)) W (Proc.devRef .tc main_v9)
      = part (W (Proc.devRef .tc main_v2)) ![0, 2, 0, 0, 0] slices_S8x3x16x1024x64_S8x1x16x1024x64_0_2_0_0_0 := by
  after_results <;> rfl

theorem keep1_arg2 (W : Valuation τ sig (Elt F)) :
    StableHlo.after (Gen.hostOps1 (F := F)) W (Proc.devRef .tc main_arg2) = W (Proc.devRef .tc main_arg2) := by
  after_results

theorem keep1_arg3 (W : Valuation τ sig (Elt F)) :
    StableHlo.after (Gen.hostOps1 (F := F)) W (Proc.devRef .tc main_arg3) = W (Proc.devRef .tc main_arg3) := by
  after_results

/-! ## Between the second and the third region -/

theorem rows_mid (W : Valuation τ sig (Elt F)) :
    StableHlo.after (Gen.hostOps2 (F := F)) W (Proc.devRef .tc main_v11)
      = shapeCast S8192x1024 (W (Proc.devRef .tc main_v10)) shapeCasts_S8x1024x1024_S8192x1024 := by
  after_results <;> rfl

theorem weight_out (W : Valuation τ sig (Elt F)) :
    StableHlo.after (Gen.hostOps2 (F := F)) W (Proc.devRef .tc main_v12)
      = transpose S1024x1024 [1, 0] (W (Proc.devRef .tc main_arg2)) transposes_S1024x1024_S1024x1024_1_0 := by
  after_results <;> rfl

theorem bias_row (W : Valuation τ sig (Elt F)) :
    StableHlo.after (Gen.hostOps2 (F := F)) W (Proc.devRef .tc main_v13)
      = shapeCast S1x1024 (W (Proc.devRef .tc main_arg3)) shapeCasts_S1024_S1x1024 := by
  after_results <;> rfl

/-! ## After the third region -/

theorem rows_out (W : Valuation τ sig (Elt F)) :
    StableHlo.after (Gen.hostOps3 (F := F)) W (Proc.devRef .tc main_v15)
      = shapeCast S8x1024x1024 (W (Proc.devRef .tc main_v14)) shapeCasts_S8192x1024_S8x1024x1024 := by
  after_results <;> rfl

end Cert.KernelIdeal.Fold

end
-- ==== Proof.KernelRun.lean ====
/-
  The run of the idealized kernel program with its result named.

  @main is seven segments: four stretches of host operations and, between them, the three pipelined regions. The
  contents of every buffer at each boundary are a fold from the launch memory — a stretch applies its operations,
  a region replaces its arrays by what its write-backs leave. Here the launch over those segments is read for the
  result array as well as for the arguments: every weakly fair execution terminates, nothing faults, the result
  buffer ends at the fold's last valuation read at the result, and the four argument arrays end as launched.
-/
import proofs.«102136_j2851858284976_2_alg».proof.Proof.Gen.KernelIdeal.Frame

set_option maxRecDepth 16384

noncomputable section

namespace Cert.KernelIdeal.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array ends at the last boundary's
    contents and the argument arrays as launched. -/
theorem run : θ_run defs (onTc (τ := τ) (main (F := F))) ⟨m, fun _ => 0, ρ⟩ (fun r => ∀ c : Dev nD,
      r.2.mem ((c.tc : Thread nD τ).loc main_v15) = W7 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v15 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Cert.KernelIdeal.KernelRun

end
-- ==== Proof.AttBody.lean ====
/-
  The attention body read at an index.

  Each grid point of the attention region handles two heads of one batch. For one head the body computes, from the
  scaled queries `qs`, the keys `k` and the values `v` (each 1024 positions by 64 lanes):
    the scores        s[n, m] = ∑_d qs[n, d] · k[m, d],
    the row maximum   μ[n]    = max over m of s[n, m], folded from −∞,
    the exponentials  e[n, m] = exp (s[n, m] − μ[n]),
    the row sums      ℓ[n]    = ∑ₘ e[n, m],
    the weights       p[n, m] = e[n, m] / ℓ[n],
    the output        o[n, d] = ∑ₘ p[n, m] · v[m, d].
  Changes of float format are the identity on the extended reals, so nothing else happens. The two heads' outputs
  are laid side by side: columns 0–63 of the block are the first head, columns 64–127 the second.
-/
import proofs.«102136_j2851858284976_2_alg».proof.Proof.Gen.KernelIdeal.Skeleton
import proofs.«102136_j2851858284976_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.AttBody

open Idealize.ShloMosaic Idealize.ShloMosaic.TcCoe Idealize.ShloMosaic.ValueIdx Idealize.SL.Sem
open Cert.KernelIdeal Cert.KernelIdeal.Facts₀

/-- The contraction of queries against keys: both operands contract their lane axis. -/
local notation "Dqk" => dot_S1024x64_S1024x64_S1024x1024_1_1_0_0_n_n
/-- The contraction of weights against values: a plain matrix product. -/
local notation "Dpv" => dot_S1024x1024_S1024x64_S1024x64_1_0_0_1_n_n

/-! ## The two matrix products as sums -/

theorem qk_lhs0 (j : S1024x1024.Idx) (q : (DotDims.contr Dqk).Idx) : (DotDims.lhsIdx Dqk j q 0).val = (j 0).val := by
  unfold DotDims.lhsIdx
  rw [dif_neg (show ¬(0 : Fin S1024x64.rank) ∈ DotDims.lhsBatch Dqk by decide),
    dif_pos (show (0 : Fin S1024x64.rank) ∈ DotDims.lhsNonContracting Dqk by decide)]
  rfl
theorem qk_lhs1 (j : S1024x1024.Idx) (q : (DotDims.contr Dqk).Idx) :
    (DotDims.lhsIdx Dqk j q 1).val = (q ⟨0, by decide⟩).val := DotDims.lhsIdx_val_of_single Dqk rfl j q
theorem qk_rhs0 (j : S1024x1024.Idx) (q : (DotDims.contr Dqk).Idx) : (DotDims.rhsIdx Dqk j q 0).val = (j 1).val := by
  unfold DotDims.rhsIdx
  rw [dif_neg (show ¬(0 : Fin S1024x64.rank) ∈ DotDims.rhsBatch Dqk by decide),
    dif_pos (show (0 : Fin S1024x64.rank) ∈ DotDims.rhsNonContracting Dqk by decide)]
  rfl
theorem qk_rhs1 (j : S1024x1024.Idx) (q : (DotDims.contr Dqk).Idx) :
    (DotDims.rhsIdx Dqk j q 1).val = (q ⟨0, by decide⟩).val := DotDims.rhsIdx_val_of_single Dqk rfl j q

theorem qk_lhsIdx (n m : Fin 1024) (d : Fin 64) :
    DotDims.lhsIdx Dqk (ix2 n m) ((contrEquiv1 Dqk 64 rfl rfl).symm d) = ix2 n d := funext fun a => Fin.ext (by
  match a with
  | ⟨0, _⟩ => exact qk_lhs0 _ _
  | ⟨1, _⟩ => exact (qk_lhs1 _ _).trans (contrEquiv1_symm_val Dqk 64 rfl rfl d))

theorem qk_rhsIdx (n m : Fin 1024) (d : Fin 64) :
    DotDims.rhsIdx Dqk (ix2 n m) ((contrEquiv1 Dqk 64 rfl rfl).symm d) = ix2 m d := funext fun a => Fin.ext (by
  match a with
  | ⟨0, _⟩ => exact qk_rhs0 _ _
  | ⟨1, _⟩ => exact (qk_rhs1 _ _).trans (contrEquiv1_symm_val Dqk 64 rfl rfl d))

/-- The scores: row `n` of the queries against row `m` of the keys. -/
theorem qk_apply (a b : FVec Ideal S1024x64 .bf16) (n m : Fin 1024) :
    matmul (F := Ideal) Dqk none a b (constant S1024x1024 .f32 0x00000000#32) (ix2 n m)
      = ∑ d : Fin 64, a (ix2 n d) * b (ix2 m d) := by
  simp only [matmul]
  rw [Ideal.matmul_constant_zero_apply, ← Equiv.sum_comp (contrEquiv1 Dqk 64 rfl rfl).symm]
  refine Finset.sum_congr rfl fun d _ => ?_
  rw [qk_lhsIdx, qk_rhsIdx]

theorem pv_lhs0 (j : S1024x64.Idx) (q : (DotDims.contr Dpv).Idx) : (DotDims.lhsIdx Dpv j q 0).val = (j 0).val := by
  unfold DotDims.lhsIdx
  rw [dif_neg (show ¬(0 : Fin S1024x1024.rank) ∈ DotDims.lhsBatch Dpv by decide),
    dif_pos (show (0 : Fin S1024x1024.rank) ∈ DotDims.lhsNonContracting Dpv by decide)]
  rfl
theorem pv_lhs1 (j : S1024x64.Idx) (q : (DotDims.contr Dpv).Idx) :
    (DotDims.lhsIdx Dpv j q 1).val = (q ⟨0, by decide⟩).val := DotDims.lhsIdx_val_of_single Dpv rfl j q
theorem pv_rhs0 (j : S1024x64.Idx) (q : (DotDims.contr Dpv).Idx) :
    (DotDims.rhsIdx Dpv j q 0).val = (q ⟨0, by decide⟩).val := DotDims.rhsIdx_val_of_single Dpv rfl j q
theorem pv_rhs1 (j : S1024x64.Idx) (q : (DotDims.contr Dpv).Idx) : (DotDims.rhsIdx Dpv j q 1).val = (j 1).val := by
  unfold DotDims.rhsIdx
  rw [dif_neg (show ¬(1 : Fin S1024x64.rank) ∈ DotDims.rhsBatch Dpv by decide),
    dif_pos (show (1 : Fin S1024x64.rank) ∈ DotDims.rhsNonContracting Dpv by decide)]
  rfl

theorem pv_lhsIdx (n : Fin 1024) (d : Fin 64) (m : Fin 1024) :
    DotDims.lhsIdx Dpv (ix2 n d) ((contrEquiv1 Dpv 1024 rfl rfl).symm m) = ix2 n m := funext fun a => Fin.ext (by
  match a with
  | ⟨0, _⟩ => exact pv_lhs0 _ _
  | ⟨1, _⟩ => exact (pv_lhs1 _ _).trans (contrEquiv1_symm_val Dpv 1024 rfl rfl m))

theorem pv_rhsIdx (n : Fin 1024) (d : Fin 64) (m : Fin 1024) :
    DotDims.rhsIdx Dpv (ix2 n d) ((contrEquiv1 Dpv 1024 rfl rfl).symm m) = ix2 m d := funext fun a => Fin.ext (by
  match a with
  | ⟨0, _⟩ => exact (pv_rhs0 _ _).trans (contrEquiv1_symm_val Dpv 1024 rfl rfl m)
  | ⟨1, _⟩ => exact pv_rhs1 _ _)

/-- The output: row `n` of the weights against column `d` of the values. -/
theorem pv_apply (p : FVec Ideal S1024x1024 .bf16) (v : FVec Ideal S1024x64 .bf16) (n : Fin 1024) (d : Fin 64) :
    matmul (F := Ideal) Dpv none p v (constant S1024x64 .f32 0x00000000#32) (ix2 n d)
      = ∑ m : Fin 1024, p (ix2 n m) * v (ix2 m d) := by
  simp only [matmul]
  rw [Ideal.matmul_constant_zero_apply, ← Equiv.sum_comp (contrEquiv1 Dpv 1024 rfl rfl).symm]
  refine Finset.sum_congr rfl fun m _ => ?_
  rw [pv_lhsIdx, pv_rhsIdx]

/-! ## A row statistic spread back over its row -/

/-- A vector of one entry per row, cast to a column and broadcast along the rows, read at `(n, m)`: the entry of row `n`. -/
theorem spread_apply (r : FVec Ideal S1024 .f32) (n m : Fin 1024) :
    broadcastTo S1024x1024 (shapeCast S1024x1 r shapeCasts_S1024_S1024x1) broadcasts_S1024x1_S1024x1024 (ix2 n m)
      = r (ix1 n) := by
  rw [broadcastTo_apply _ broadcasts_S1024x1_S1024x1024 (ix2 n m) (ix2 n (0 : Fin 1)) (fun a => by
    match a with
    | ⟨0, _⟩ => show n.val = if (1024 : ℕ) = 1 then 0 else n.val; rw [if_neg (by decide)]
    | ⟨1, _⟩ => show (0 : ℕ) = if (1 : ℕ) = 1 then 0 else m.val; rw [if_pos rfl])]
  exact shapeCast_apply r shapeCasts_S1024_S1024x1 (ix2 n (0 : Fin 1)) (ix1 n) (by
    rw [Shape.rowMajor_val_one, Shape.rowMajor_val_two]; show n.val = n.val * 1 + 0; omega)

/-- The index a row reduction inserts: row `n`, column `m`. -/
theorem lift_row (n : Fin 1024) (m : Fin 1024) :
    Shape.Reduces.lift reduces_S1024x1024_S1024 (ix1 n) m = ix2 n m := funext fun a => Fin.ext (by
  match a with
  | ⟨0, _⟩ => rfl
  | ⟨1, _⟩ => rfl)

/-- Every row's maximum, folded from −∞, spread back over the row. -/
def rowMaxV (s : FVec Ideal S1024x1024 .f32) : FVec Ideal S1024x1024 .f32 :=
  broadcastTo S1024x1024 (shapeCast S1024x1
    (multiReduction .maximumf [1] S1024 s 0xFF800000#32 reduces_S1024x1024_S1024 (.inl rfl) rfl)
    shapeCasts_S1024_S1024x1) broadcasts_S1024x1_S1024x1024

/-- Every row's sum spread back over the row. -/
def rowSumV (e : FVec Ideal S1024x1024 .f32) : FVec Ideal S1024x1024 .f32 :=
  broadcastTo S1024x1024 (shapeCast S1024x1
    (multiReduction .add [1] S1024 e 0x00000000#32 reduces_S1024x1024_S1024 (.inl rfl) rfl)
    shapeCasts_S1024_S1024x1) broadcasts_S1024x1_S1024x1024

theorem rowMaxV_apply (s : FVec Ideal S1024x1024 .f32) (n m : Fin 1024) :
    rowMaxV s (ix2 n m) = Cert.Spec.rowMax fun m' => s (ix2 n m') := by
  unfold rowMaxV
  rw [spread_apply]
  refine (Ideal.multiReduction_maximumf_single s 0xFF800000#32 reduces_S1024x1024_S1024 (.inl rfl) rfl (ix1 n)).trans ?_
  have hf : (s ∘ Shape.Reduces.lift reduces_S1024x1024_S1024 (ix1 n)) = fun m' : Fin 1024 => s (ix2 n m') :=
    funext fun m' => congrArg s (lift_row n m')
  rw [hf]
  rfl

theorem rowSumV_apply (e : FVec Ideal S1024x1024 .f32) (n m : Fin 1024) :
    rowSumV e (ix2 n m) = ∑ m' : Fin 1024, e (ix2 n m') := by
  unfold rowSumV
  rw [spread_apply]
  refine (Ideal.multiReduction_add_single e 0x00000000#32 reduces_S1024x1024_S1024 (.inl rfl) rfl (ix1 n)).trans ?_
  exact Finset.sum_congr rfl fun m' _ => congrArg e (lift_row n m')

/-! ## One head -/

/-- The body's chain on one head, as printed. -/
def headChain (qs k v : FVec Ideal S1024x64 .bf16) : FVec Ideal S1024x64 .bf16 :=
  have s : FVec Ideal S1024x1024 .f32 := matmul Dqk none qs k (constant S1024x1024 .f32 0x00000000#32)
  have e : FVec Ideal S1024x1024 .f32 := exp (subf s (rowMaxV s))
  have p : FVec Ideal S1024x1024 .f32 := divf e (rowSumV e)
  truncf .bf16 (matmul Dpv none (truncf .bf16 p bitsLt_bf16_f32) v (constant S1024x64 .f32 0x00000000#32)) bitsLt_bf16_f32

/-- One head's output at position `n`, lane `d`: the softmax weights of row `n`'s scores against column `d` of the values. -/
theorem headChain_apply (qs k v : FVec Ideal S1024x64 .bf16) (n : Fin 1024) (d : Fin 64) :
    headChain qs k v (ix2 n d)
      = ∑ m : Fin 1024, Cert.Spec.weight (fun m' => ∑ d' : Fin 64, qs (ix2 n d') * k (ix2 m' d')) m * v (ix2 m d) := by
  unfold headChain
  show matmul (F := Ideal) Dpv none _ v (constant S1024x64 .f32 0x00000000#32) (ix2 n d) = _
  rw [pv_apply]
  refine Finset.sum_congr rfl fun m _ => congrArg (· * v (ix2 m d)) ?_
  have hs : ∀ m' : Fin 1024, matmul (F := Ideal) Dqk none qs k (constant S1024x1024 .f32 0x00000000#32) (ix2 n m')
      = ∑ d' : Fin 64, qs (ix2 n d') * k (ix2 m' d') := fun m' => qk_apply qs k n m'
  unfold Cert.Spec.weight Cert.Spec.expShift
  show Ideal.div (Ideal.exp (_ - rowMaxV _ (ix2 n m))) (rowSumV _ (ix2 n m)) = _
  rw [rowSumV_apply, rowMaxV_apply]
  simp only [hs]
  refine congrArg (Ideal.div _) (Finset.sum_congr rfl fun m' _ => ?_)
  show Ideal.exp (_ - rowMaxV _ (ix2 n m')) = _
  rw [rowMaxV_apply]
  simp only [hs]

end Cert.KernelIdeal.AttBody

end
-- ==== Proof.RegionProj.lean ====
/-
  Region 0, the first projection: the kernel's blocked matrix product leaves in its output array the product
  `Spec.proj` of its two operand arrays, and that product, reshaped, is the batch-layout projection `Spec.qkv`.
-/
import proofs.«102136_j2851858284976_2_alg».proof.Proof.Gen.KernelIdeal.Frame
import proofs.«102136_j2851858284976_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionProj

open Idealize.ShloMosaic Idealize.ShloMosaic.TcCoe Idealize.ShloMosaic.ValueIdx Idealize.SL.Sem Cert.KernelIdeal Cert.KernelIdeal.Gen
open Idealize.ShloMosaic.Pipeline (Dat Cfg Window)

/-! ## The body's payload at an index -/

/-- The dimension numbers of the block product: rows of the left operand against columns of the right. -/
abbrev D0 : DotDims S512x1024 S1024x1024 S512x1024 := dot_S512x1024_S1024x1024_S512x1024_1_0_0_1_n_n

theorem lhs0 (i : S512x1024.Idx) (q : D0.contr.Idx) : (D0.lhsIdx i q 0).val = (i 0).val := by
  unfold DotDims.lhsIdx
  rw [dif_neg (show ¬(0 : Fin S512x1024.rank) ∈ D0.lhsBatch by decide), dif_pos (show (0 : Fin S512x1024.rank) ∈ D0.lhsNonContracting by decide)]
  rfl
theorem lhs1 (i : S512x1024.Idx) (q : D0.contr.Idx) : (D0.lhsIdx i q 1).val = (q ⟨0, by decide⟩).val :=
  D0.lhsIdx_val_of_single rfl i q
theorem rhs0 (i : S512x1024.Idx) (q : D0.contr.Idx) : (D0.rhsIdx i q 0).val = (q ⟨0, by decide⟩).val :=
  D0.rhsIdx_val_of_single rfl i q
theorem rhs1 (i : S512x1024.Idx) (q : D0.contr.Idx) : (D0.rhsIdx i q 1).val = (i 1).val := by
  unfold DotDims.rhsIdx
  rw [dif_neg (show ¬(1 : Fin S1024x1024.rank) ∈ D0.rhsBatch by decide), dif_pos (show (1 : Fin S1024x1024.rank) ∈ D0.rhsNonContracting by decide)]
  rfl

/-- The block the body stores is the product of the two blocks it loads: the format changes are the identity on
    extended reals and the accumulator starts at zero. -/
theorem pay_apply (x0 : Vec Ideal S512x1024 .f32) (x1 : Vec Ideal S1024x1024 .f32) (p : Fin 512) (q : Fin 1024) :
    k0_pay1 (F := Ideal) x0 x1 (ix2 p q) = ∑ k : Fin 1024, x0 (ix2 p k) * x1 (ix2 k q) := by
  unfold k0_pay1
  rw [shapeCast_self, shapeCast_self]
  refine (Ideal.matmul_constant_zero_apply D0 none _ _ (ix2 p q)).trans ?_
  rw [← Equiv.sum_comp (contrEquiv1 D0 1024 rfl rfl).symm]
  refine Finset.sum_congr rfl fun k _ => ?_
  have hk := contrEquiv1_symm_val D0 1024 rfl rfl k
  have el : D0.lhsIdx (ix2 p q) ((contrEquiv1 D0 1024 rfl rfl).symm k) = ix2 p k := funext fun a => Fin.ext (by
    match a with
    | ⟨0, _⟩ => exact lhs0 _ _
    | ⟨1, _⟩ => exact (lhs1 _ _).trans hk)
  have er : D0.rhsIdx (ix2 p q) ((contrEquiv1 D0 1024 rfl rfl).symm k) = ix2 k q := funext fun a => Fin.ext (by
    match a with
    | ⟨0, _⟩ => exact (rhs0 _ _).trans hk
    | ⟨1, _⟩ => exact rhs1 _ _)
  rw [el, er]
  rfl

/-- The same at any index of the block. -/
theorem pay_apply' (x0 : Vec Ideal S512x1024 .f32) (x1 : Vec Ideal S1024x1024 .f32) (i : S512x1024.Idx) :
    k0_pay1 (F := Ideal) x0 x1 i = ∑ k : Fin 1024, x0 (ix2 (i 0) k) * x1 (ix2 k (i 1)) := by
  obtain ⟨p, q, rfl⟩ : ∃ (p : Fin 512) (q : Fin 1024), i = ix2 p q := ⟨i 0, i 1, eq_ix2 i⟩
  exact pay_apply x0 x1 p q

/-! ## The index maps over the grid -/

theorem hz : (![0, 0] : Fin 2 → Nat) = fun _ => 0 := funext fun a => by fin_cases a <;> rfl

/-- The printed index maps, decided over the 48 grid points: the left operand's block is the output's row block and
    spans every column; the right operand's block is the output's column block and spans every row; the output's
    block indices stay in their ranges. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 15 ∧ win0_2.index t (1 : Fin 2) ≤ 2 :=
  (by decide +kernel : ∀ t : Fin grid0.N, _)

/-- Every block of the output array is some point's. -/
theorem idx_onto : ∀ (q0 : Fin 16) (q1 : Fin 3), ∃ t : Fin cfg0.N, win0_2.index t = ![q0.val, q1.val] :=
  (by decide +kernel : ∀ (q0 : Fin 16) (q1 : Fin 3), ∃ t : Fin grid0.N, win0_2.index t = ![q0.val, q1.val])

/-! ## What a point writes back -/

variable (V : (c : Dev nD) → (b : Ref sig .tc) → Buf (Elt Ideal) ((c : Thread nD τ).loc b))

/-- What point `t` writes back is block `t` of the product of the two operand arrays. -/
theorem flushed_eq (c : Dev nD) (t : Fin cfg0.N) :
    (dat0 (F := Ideal) V c).flushed 2 t
      = ((cfg0.win 2).blk t).view.read (Elt Ideal) (Cert.Spec.proj (V c main_v0) (V c main_v1)) := by
  show (cfg0.win 2).cut (grid0.coords t) ((dat0 V c).after 2 t) = _
  rw [after0_2]
  unfold out0_2
  rw [View.canon_unit_zero hz]
  simp only [View.ld_unit_zero (S := S512x1024) hz, View.ld_unit_zero (S := S1024x1024) hz]
  obtain ⟨e0, e1, e2, e3, e4, e5⟩ := idx_facts t
  funext j
  have hj0 : (j 0).val < 512 := (j 0).isLt
  have hj1 : (j 1).val < 1024 := (j 1).isLt
  refine (pay_apply' (iblk0 V c 0 t) (iblk0 V c 1 t) _).trans ?_
  show _ = Cert.Spec.proj (V c main_v0) (V c main_v1) (((cfg0.win 2).blk t).view.emb j)
  unfold Cert.Spec.proj
  refine Finset.sum_congr rfl fun k _ => ?_
  have h0 : ((cfg0.win 0).blk t).view.emb (ix2 ((win0 2).xinj (grid0.coords t) j 0) k : S512x1024.Idx)
      = (ix2 ((((cfg0.win 2).blk t).view.emb j) 0) k : S8192x1024.Idx) := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 1024 + 1 * k.val = k.val; omega
  have h1 : ((cfg0.win 1).blk t).view.emb (ix2 k ((win0 2).xinj (grid0.coords t) j 1) : S1024x1024.Idx)
      = (ix2 k ((((cfg0.win 2).blk t).view.emb j) 1) : S1024x3072.Idx) := by
    funext a; apply Fin.ext
    match a with
    | ⟨0, _⟩ => show win0_1.index t (0 : Fin 2) * 1024 + 1 * k.val = k.val; omega
    | ⟨1, _⟩ => show win0_1.index t (1 : Fin 2) * 1024 + 1 * (j 1).val = win0_2.index t (1 : Fin 2) * 1024 + 1 * (j 1).val; omega
  refine congr (congrArg _ ?_) ?_
  · exact congrArg (V c main_v0) h0
  · exact congrArg (V c main_v1) h1

/-! ## The blocks cover the array -/

/-- An index of the array is in point `t`'s block iff each coordinate is in the block's range on its axis. -/
theorem mem_blk (t : Fin cfg0.N) (i : S8192x3072.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v2).slice (win0_2.rect t)).set ↔ _
  rw [View.set_slice_whole, Rect.mem_set_unit]
  exact Iff.rfl

/-- Row `r`, column `e` of the array is in the block of the point with block indices `(r / 512, e / 1024)`. -/
theorem cover (i : S8192x3072.Idx) :
    ∃ t : Fin cfg0.N, (cfg0.win 2).flush t = true ∧ i ∈ ((cfg0.win 2).blk t).view.set := by
  have hi0 : (i 0).val < 8192 := (i 0).isLt
  have hi1 : (i 1).val < 3072 := (i 1).isLt
  obtain ⟨t, ht⟩ := idx_onto ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-! ## The array after the region -/

/-- After region 0 the output array holds the product of the two operand arrays as the region found them. -/
theorem final (c : Dev nD) :
    (Gen.dat0 (F := Ideal) V c).arrAt 2 cfg0.N = Cert.Spec.proj (V c main_v0) (V c main_v1) :=
  (dat0 (F := Ideal) V c).arrAt_eq_of_cover 2 (Cert.Spec.proj (V c main_v0) (V c main_v1))
    (fun t _ => flushed_eq V c t) cover

/-! ## The product in the batch layout -/

/-- The product of the flattened rows with the transposed weight, reshaped to the five-axis layout, is the batch-layout
    projection reshaped the same way: both reshapes keep the row-major position `f`, which is row `f / 3072`, column
    `f % 3072` of the 8192 × 3072 matrix and batch `f / 3145728`, position `f / 3072 % 1024`, feature `f % 3072` of the
    batch layout; and row `r` of the flattened rows is batch `r / 1024`, position `r % 1024`. -/
theorem qkv_layout (x : S8x1024x1024.Idx → EReal) (w : S3072x1024.Idx → EReal)
    (h1 : S8x1024x1024.ShapeCasts S8192x1024) (h2 : S3072x1024.Transposes [1, 0] S1024x3072)
    (h3 : S8192x3072.ShapeCasts S8x3x16x1024x64) (h4 : (⟨3, ![8, 1024, 3072]⟩ : Shape).ShapeCasts S8x3x16x1024x64) :
    shapeCast S8x3x16x1024x64 (Cert.Spec.proj (shapeCast S8192x1024 x h1) (transpose S1024x3072 [1, 0] w h2)) h3
      = shapeCast S8x3x16x1024x64 (Cert.Spec.qkv x w) h4 := by
  funext i
  have b0 : (i 0).val < 8 := (i 0).isLt
  have b1 : (i 1).val < 3 := (i 1).isLt
  have b2 : (i 2).val < 16 := (i 2).isLt
  have b3 : (i 3).val < 1024 := (i 3).isLt
  have b4 : (i 4).val < 64 := (i 4).isLt
  obtain ⟨f, hf⟩ : ∃ f : Nat, f = ((((i 0).val * 3 + (i 1).val) * 16 + (i 2).val) * 1024 + (i 3).val) * 64 + (i 4).val := ⟨_, rfl⟩
  have hr : f / 3072 < 8192 := by omega
  have he : f % 3072 < 3072 := by omega
  have hb : f / 3145728 < 8 := by omega
  have hn : f / 3072 % 1024 < 1024 := by omega
  have hL := shapeCast_apply (Cert.Spec.proj (shapeCast S8192x1024 x h1) (transpose S1024x3072 [1, 0] w h2)) h3 i
    (ix2 (⟨f / 3072, hr⟩ : Fin 8192) (⟨f % 3072, he⟩ : Fin 3072))
    (by rewrite [Shape.rowMajor_val_two, Shape.rowMajor_val_five]
        show f / 3072 * 3072 + f % 3072 = ((((i 0).val * 3 + (i 1).val) * 16 + (i 2).val) * 1024 + (i 3).val) * 64 + (i 4).val
        omega)
  have hR := shapeCast_apply (Cert.Spec.qkv x w) h4 i
    (ix3 (⟨f / 3145728, hb⟩ : Fin 8) (⟨f / 3072 % 1024, hn⟩ : Fin 1024) (⟨f % 3072, he⟩ : Fin 3072))
    (by rewrite [Shape.rowMajor_val_three, Shape.rowMajor_val_five]
        show (f / 3145728 * 1024 + f / 3072 % 1024) * 3072 + f % 3072 = ((((i 0).val * 3 + (i 1).val) * 16 + (i 2).val) * 1024 + (i 3).val) * 64 + (i 4).val
        omega)
  rw [hL, hR, Cert.Spec.proj_apply, Cert.Spec.qkv_apply]
  refine Finset.sum_congr rfl fun k _ => ?_
  have hx : shapeCast S8192x1024 x h1 (ix2 (⟨f / 3072, hr⟩ : Fin 8192) k)
      = x (ix3 (⟨f / 3145728, hb⟩ : Fin 8) (⟨f / 3072 % 1024, hn⟩ : Fin 1024) k) :=
    shapeCast_apply x h1 _ _
      (by rewrite [Shape.rowMajor_val_three, Shape.rowMajor_val_two]
          show (f / 3145728 * 1024 + f / 3072 % 1024) * 1024 + k.val = f / 3072 * 1024 + k.val
          omega)
  have hw : transpose S1024x3072 [1, 0] w h2 (ix2 k (⟨f % 3072, he⟩ : Fin 3072)) = w (ix2 (⟨f % 3072, he⟩ : Fin 3072) k) :=
    transpose_apply [1, 0] w h2 _ _ (fun a => by
      match a with
      | ⟨0, _⟩ => rfl
      | ⟨1, _⟩ => rfl)
  rw [hx, hw]

end Cert.KernelIdeal.RegionProj

end
-- ==== Proof.RegionAttCover.lean ====
/-
  Region 1, attention, the window side: given what the body leaves at each index of its stored block as a function of
  the three blocks it loads (`blockAt`), the output array after the region is `Spec.att` of the three operand arrays.
  Point (b, p) of the 8 × 8 grid loads heads 2p and 2p + 1 of batch b of each operand and stores rows 0 … 1023,
  columns 128p … 128p + 127 of batch b: column c of the stored block is lane c % 64 of head 2p + c / 64.
-/
import proofs.«102136_j2851858284976_2_alg».proof.Proof.Gen.KernelIdeal.Frame
import proofs.«102136_j2851858284976_2_alg».proof.Proof.Spec
import Idealize.ShloMosaic.Lib.Pipeline.Value
import Idealize.ShloMosaic.Lib.ValueIdx

set_option maxRecDepth 16384

noncomputable section

namespace Cert.KernelIdeal.RegionAttCover

open Idealize.ShloMosaic Idealize.ShloMosaic.TcCoe Idealize.ShloMosaic.ValueIdx Idealize.SL.Sem Cert.KernelIdeal Cert.KernelIdeal.Gen
open Idealize.ShloMosaic.Pipeline (Dat Cfg Window)

/-! ## The stored block at an index -/

/-- Which head of the pair, which position, which lane an index of the stored block is. -/
def hOf (j : S1x1024x128.Idx) : Fin 2 := ⟨(j 2).val / 64, by have h : (j 2).val < 128 := (j 2).isLt; omega⟩
def nOf (j : S1x1024x128.Idx) : Fin 1024 := ⟨(j 1).val, (j 1).isLt⟩
def dOf (j : S1x1024x128.Idx) : Fin 64 := ⟨(j 2).val % 64, Nat.mod_lt _ (by norm_num)⟩

/-- What the body leaves at index `j` of its block, from the three input blocks: head `hOf j`'s softmax weights at
    position `nOf j` against lane `dOf j` of the values. -/
def blockAt (x0 x1 x2 : Vec Ideal S1x2x1024x64 .bf16) (j : S1x1024x128.Idx) : EReal :=
  ∑ m : Fin 1024, Cert.Spec.weight
    (fun m' => ∑ d' : Fin 64, (x0 (ix4 (0 : Fin 1) (hOf j) (nOf j) d') * Cert.Spec.scale) * x1 (ix4 (0 : Fin 1) (hOf j) m' d')) m
      * x2 (ix4 (0 : Fin 1) (hOf j) m (dOf j))

/-! ## The index maps over the grid -/

/-- The printed index maps, decided over the 64 grid points: each operand's block is at the output's batch index and
    at the output's column-block index along the heads, and spans every position and lane; the output's block spans
    every row; the two free block indices stay in their ranges. -/
theorem idx_facts : ∀ t : Fin cfg1.N,
    (win1_0.index t (0 : Fin 4) = win1_3.index t (0 : Fin 3) ∧ win1_0.index t (1 : Fin 4) = win1_3.index t (2 : Fin 3)
      ∧ win1_0.index t (2 : Fin 4) = 0 ∧ win1_0.index t (3 : Fin 4) = 0)
    ∧ (win1_1.index t (0 : Fin 4) = win1_3.index t (0 : Fin 3) ∧ win1_1.index t (1 : Fin 4) = win1_3.index t (2 : Fin 3)
      ∧ win1_1.index t (2 : Fin 4) = 0 ∧ win1_1.index t (3 : Fin 4) = 0)
    ∧ (win1_2.index t (0 : Fin 4) = win1_3.index t (0 : Fin 3) ∧ win1_2.index t (1 : Fin 4) = win1_3.index t (2 : Fin 3)
      ∧ win1_2.index t (2 : Fin 4) = 0 ∧ win1_2.index t (3 : Fin 4) = 0)
    ∧ win1_3.index t (1 : Fin 3) = 0 ∧ win1_3.index t (0 : Fin 3) ≤ 7 ∧ win1_3.index t (2 : Fin 3) ≤ 7 :=
  (by decide +kernel : ∀ t : Fin grid1.N, _)

/-- Every block of the output array is some point's. -/
theorem idx_onto : ∀ (q0 q2 : Fin 8), ∃ t : Fin cfg1.N, win1_3.index t = ![q0.val, 0, q2.val] :=
  (by decide +kernel : ∀ (q0 q2 : Fin 8), ∃ t : Fin grid1.N, win1_3.index t = ![q0.val, 0, q2.val])

/-! ## What a point writes back -/

section
variable (hout : ∀ (x0 x1 x2 : Vec Ideal S1x2x1024x64 .bf16) (j : S1x1024x128.Idx), out1_3 (F := Ideal) x0 x1 x2 j = blockAt x0 x1 x2 j)
variable (V : (c : Dev nD) → (b : Ref sig .tc) → Buf (Elt Ideal) ((c : Thread nD τ).loc b))

include hout in
/-- What point `t` writes back is block `t` of the attention of the three operand arrays. -/
theorem flushed_eq (c : Dev nD) (t : Fin cfg1.N) :
    (dat1 (F := Ideal) V c).flushed 3 t
      = ((cfg1.win 3).blk t).view.read (Elt Ideal) (Cert.Spec.att (V c main_v5) (V c main_v7) (V c main_v9)) := by
  show (cfg1.win 3).cut (grid1.coords t) ((dat1 V c).after 3 t) = _
  rw [after1_3]
  obtain ⟨⟨a0, a1, a2, a3⟩, ⟨b0, b1, b2, b3⟩, ⟨c0, c1, c2, c3⟩, o1, o0, o2⟩ := idx_facts t
  funext j
  have hj0 : (j 0).val < 1 := (j 0).isLt
  have hj1 : (j 1).val < 1024 := (j 1).isLt
  have hj2 : (j 2).val < 128 := (j 2).isLt
  refine (hout _ _ _ _).trans ?_
  show _ = Cert.Spec.att (V c main_v5) (V c main_v7) (V c main_v9) (((cfg1.win 3).blk t).view.emb j)
  -- the embedded output index by coordinates: batch, row, column
  have hB : win1_3.index t (0 : Fin 3) < 8 := by omega
  have hC : win1_3.index t (2 : Fin 3) * 128 + (j 2).val < 1024 := by omega
  have hi : ((cfg1.win 3).blk t).view.emb j
      = (ix3 (⟨win1_3.index t (0 : Fin 3), hB⟩ : Fin 8) (⟨(j 1).val, hj1⟩ : Fin 1024)
          (⟨win1_3.index t (2 : Fin 3) * 128 + (j 2).val, hC⟩ : Fin 1024) : S8x1024x1024.Idx) := by
    funext a; apply Fin.ext
    match a with
    | ⟨0, _⟩ => show win1_3.index t (0 : Fin 3) * 1 + 1 * (j 0).val = win1_3.index t (0 : Fin 3); omega
    | ⟨1, _⟩ => show win1_3.index t (1 : Fin 3) * 1024 + 1 * (j 1).val = (j 1).val; omega
    | ⟨2, _⟩ => show win1_3.index t (2 : Fin 3) * 128 + 1 * (j 2).val = win1_3.index t (2 : Fin 3) * 128 + (j 2).val; omega
  rw [hi, Cert.Spec.att_apply]
  generalize hBdef : (⟨win1_3.index t (0 : Fin 3), hB⟩ : Fin 8) = B
  generalize hNdef : (⟨(j 1).val, hj1⟩ : Fin 1024) = N
  generalize hCdef : (⟨win1_3.index t (2 : Fin 3) * 128 + (j 2).val, hC⟩ : Fin 1024) = C
  have hBv : B.val = win1_3.index t (0 : Fin 3) := by rw [← hBdef]
  have hNv : N.val = (j 1).val := by rw [← hNdef]
  have hCv : C.val = win1_3.index t (2 : Fin 3) * 128 + (j 2).val := by rw [← hCdef]
  -- the head, position and lane of the stored block's index against the column's head and lane
  have hH : (Cert.Spec.headOf C).val = win1_3.index t (2 : Fin 3) * 2 + (hOf ((cfg1.win 3).xinj (grid1.coords t) j)).val := by
    show C.val / 64 = win1_3.index t (2 : Fin 3) * 2 + (j 2).val / 64
    omega
  have hN : N.val = (nOf ((cfg1.win 3).xinj (grid1.coords t) j)).val := hNv
  have hD : (Cert.Spec.laneOf C).val = (dOf ((cfg1.win 3).xinj (grid1.coords t) j)).val := by
    show C.val % 64 = (j 2).val % 64
    omega
  -- an index of an operand's block, in the array
  have e0 : ∀ (hh : Fin 2) (H : Fin 16) (n' N' : Fin 1024) (d' D' : Fin 64),
      H.val = win1_3.index t (2 : Fin 3) * 2 + hh.val → N'.val = n'.val → D'.val = d'.val →
      ((cfg1.win 0).blk t).view.emb (ix4 (0 : Fin 1) hh n' d' : S1x2x1024x64.Idx) = (ix4 B H N' D' : S8x16x1024x64.Idx) := by
    intro hh H n' N' d' D' h1 h2 h3
    funext a; apply Fin.ext
    match a with
    | ⟨0, _⟩ => show win1_0.index t (0 : Fin 4) * 1 + 1 * 0 = B.val; omega
    | ⟨1, _⟩ => show win1_0.index t (1 : Fin 4) * 2 + 1 * hh.val = H.val; omega
    | ⟨2, _⟩ => show win1_0.index t (2 : Fin 4) * 1024 + 1 * n'.val = N'.val; omega
    | ⟨3, _⟩ => show win1_0.index t (3 : Fin 4) * 64 + 1 * d'.val = D'.val; omega
  have e1 : ∀ (hh : Fin 2) (H : Fin 16) (n' N' : Fin 1024) (d' D' : Fin 64),
      H.val = win1_3.index t (2 : Fin 3) * 2 + hh.val → N'.val = n'.val → D'.val = d'.val →
      ((cfg1.win 1).blk t).view.emb (ix4 (0 : Fin 1) hh n' d' : S1x2x1024x64.Idx) = (ix4 B H N' D' : S8x16x1024x64.Idx) := by
    intro hh H n' N' d' D' h1 h2 h3
    funext a; apply Fin.ext
    match a with
    | ⟨0, _⟩ => show win1_1.index t (0 : Fin 4) * 1 + 1 * 0 = B.val; omega
    | ⟨1, _⟩ => show win1_1.index t (1 : Fin 4) * 2 + 1 * hh.val = H.val; omega
    | ⟨2, _⟩ => show win1_1.index t (2 : Fin 4) * 1024 + 1 * n'.val = N'.val; omega
    | ⟨3, _⟩ => show win1_1.index t (3 : Fin 4) * 64 + 1 * d'.val = D'.val; omega
  have e2 : ∀ (hh : Fin 2) (H : Fin 16) (n' N' : Fin 1024) (d' D' : Fin 64),
      H.val = win1_3.index t (2 : Fin 3) * 2 + hh.val → N'.val = n'.val → D'.val = d'.val →
      ((cfg1.win 2).blk t).view.emb (ix4 (0 : Fin 1) hh n' d' : S1x2x1024x64.Idx) = (ix4 B H N' D' : S8x16x1024x64.Idx) := by
    intro hh H n' N' d' D' h1 h2 h3
    funext a; apply Fin.ext
    match a with
    | ⟨0, _⟩ => show win1_2.index t (0 : Fin 4) * 1 + 1 * 0 = B.val; omega
    | ⟨1, _⟩ => show win1_2.index t (1 : Fin 4) * 2 + 1 * hh.val = H.val; omega
    | ⟨2, _⟩ => show win1_2.index t (2 : Fin 4) * 1024 + 1 * n'.val = N'.val; omega
    | ⟨3, _⟩ => show win1_2.index t (3 : Fin 4) * 64 + 1 * d'.val = D'.val; omega
  unfold blockAt Cert.Spec.headOut
  refine Finset.sum_congr rfl fun m _ => ?_
  refine congr (congrArg _ ?_) ?_
  · refine congrArg (fun s => Cert.Spec.weight s m) ?_
    funext m'
    unfold Cert.Spec.score
    beta_reduce
    refine Finset.sum_congr rfl fun d' _ => ?_
    refine congr (congrArg _ (congr (congrArg _ ?_) rfl)) ?_
    · exact congrArg (V c main_v5) (e0 _ _ _ _ _ _ hH hN rfl)
    · exact congrArg (V c main_v7) (e1 _ _ _ _ _ _ hH rfl rfl)
  · exact congrArg (V c main_v9) (e2 _ _ _ _ _ _ hH rfl hD)

end

/-! ## The blocks cover the array -/

/-- An index of the array is in point `t`'s block iff each coordinate is in the block's range on its axis. -/
theorem mem_blk (t : Fin cfg1.N) (i : S8x1024x1024.Idx) :
    i ∈ ((cfg1.win 3).blk t).view.set ↔ ∀ a : Fin 3, win1_3.index t a * S1x1024x128.size a ≤ (i a).val
      ∧ (i a).val < win1_3.index t a * S1x1024x128.size a + S1x1024x128.size a := by
  show i ∈ ((View.whole main_v10).slice (win1_3.rect t)).set ↔ _
  rw [View.set_slice_whole, Rect.mem_set_unit]
  exact Iff.rfl

/-- Batch `b`, row `n`, column `col` of the array is in the block of the point with block indices `(b, 0, col / 128)`. -/
theorem cover (i : S8x1024x1024.Idx) :
    ∃ t : Fin cfg1.N, (cfg1.win 3).flush t = true ∧ i ∈ ((cfg1.win 3).blk t).view.set := by
  have hi0 : (i 0).val < 8 := (i 0).isLt
  have hi1 : (i 1).val < 1024 := (i 1).isLt
  have hi2 : (i 2).val < 1024 := (i 2).isLt
  obtain ⟨t, ht⟩ := idx_onto ⟨(i 0).val, hi0⟩ ⟨(i 2).val / 128, by omega⟩
  have q0 : win1_3.index t (0 : Fin 3) = (i 0).val := congrFun ht 0
  have q1 : win1_3.index t (1 : Fin 3) = 0 := congrFun ht 1
  have q2 : win1_3.index t (2 : Fin 3) = (i 2).val / 128 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 128 ≤ (i 2).val ∧ (i 2).val < win1_3.index t (2 : Fin 3) * 128 + 128; omega

/-! ## The array after the region -/

/-- After region 1 the output array holds the attention of the three operand arrays as the region found them, given
    the stored block at an index. -/
theorem final
    (hout : ∀ (x0 x1 x2 : Vec Ideal S1x2x1024x64 .bf16) (j : S1x1024x128.Idx), out1_3 (F := Ideal) x0 x1 x2 j = blockAt x0 x1 x2 j)
    (V : (c : Dev nD) → (b : Ref sig .tc) → Buf (Elt Ideal) ((c : Thread nD τ).loc b)) (c : Dev nD) :
    (Gen.dat1 (F := Ideal) V c).arrAt 3 cfg1.N = Cert.Spec.att (V c main_v5) (V c main_v7) (V c main_v9) :=
  (dat1 (F := Ideal) V c).arrAt_eq_of_cover 3 (Cert.Spec.att (V c main_v5) (V c main_v7) (V c main_v9))
    (fun t _ => flushed_eq hout V c t) cover

end Cert.KernelIdeal.RegionAttCover

end
-- ==== Proof.RegionAtt.lean ====
/-
  The attention region's output array.

  Grid point `(b, p)` of the 8 × 8 grid reads heads `2p` and `2p + 1` of batch `b` from each of q, k, v (a block of
  two heads, 1024 positions, 64 lanes) and writes rows `0 … 1023`, columns `128 p … 128 p + 127` of batch `b` of the
  output: columns `0 … 63` of its block are head `2p`'s output, columns `64 … 127` head `2p + 1`'s. The scale
  multiplies the queries before the scores are taken. So the block at `(b, p)` is the restriction of ONE function of
  the three arrays, softmax attention with the heads laid side by side, and the 64 blocks tile the output array.
-/
import proofs.«102136_j2851858284976_2_alg».proof.Proof.Gen.KernelIdeal.Frame
import proofs.«102136_j2851858284976_2_alg».proof.Proof.AttBody
import proofs.«102136_j2851858284976_2_alg».proof.Proof.Spec
import Idealize.ShloMosaic.Lib.Pipeline.Value
import Idealize.ShloMosaic.Lib.ValueIdx

set_option maxRecDepth 16384

noncomputable section

namespace Cert.KernelIdeal.RegionAtt

open Idealize.ShloMosaic Idealize.ShloMosaic.TcCoe Idealize.ShloMosaic.ValueIdx Idealize.SL.Sem
open Cert.KernelIdeal Cert.KernelIdeal.Gen
open Idealize.ShloMosaic.Pipeline (Dat Cfg Window)

/-! ## The payloads are the head chain -/

/-- The first head of the pair: the chain on the block's first head, the queries scaled first. -/
theorem pay2_eq (v0 v2 v4 : Vec Ideal S1x1x1024x64 .bf16) :
    k1_pay2 (F := Ideal) v0 v2 v4 = AttBody.headChain
      (mulf (shapeCast S1024x64 v0 shapeCasts_S1x1x1024x64_S1024x64)
        (broadcast S1024x64 (Scalar.ofBits (F := Ideal) .bf16 0x3E00#16)))
      (shapeCast S1024x64 v2 shapeCasts_S1x1x1024x64_S1024x64)
      (shapeCast S1024x64 v4 shapeCasts_S1x1x1024x64_S1024x64) := rfl

/-- The stored block: the first head's output beside the chain on the second head. -/
theorem pay1_eq (v20 v22 v24 v26 v27 : FVec Ideal S1024x64 .bf16) :
    k1_pay1 (F := Ideal) v20 v22 v24 v26 v27 = shapeCast S1x1024x128
      (concatenate S1024x128 1 [⟨S1024x64, v20⟩, ⟨S1024x64, AttBody.headChain (mulf v22 v27) v24 v26⟩]
        concatenates_S1024x64_S1024x64_S1024x128_d1) shapeCasts_S1024x128_S1x1024x128 := rfl

/-! ## One head of a two-head block -/

/-- Head `hh` of a block of two heads, as a 1024 × 64 matrix. -/
def headOfBlock (X : Vec Ideal S1x2x1024x64 .bf16) (hh : Fin 2) : FVec Ideal S1024x64 .bf16 :=
  fun i => X (ix4 (0 : Fin 1) hh ⟨(i 0).val, (i 0).isLt⟩ ⟨(i 1).val, (i 1).isLt⟩)

theorem headOfBlock_apply (X : Vec Ideal S1x2x1024x64 .bf16) (hh : Fin 2) (n : Fin 1024) (d : Fin 64) :
    headOfBlock X hh (ix2 n d) = X (ix4 (0 : Fin 1) hh n d) := rfl

/-- The load of the block's first head, its two unit axes dropped. -/
theorem load_head0 (X : Vec Ideal S1x2x1024x64 .bf16) :
    shapeCast S1024x64 (View.ld X r1_0) shapeCasts_S1x1x1024x64_S1024x64 = headOfBlock X 0 := by
  funext i
  obtain ⟨n, d, rfl⟩ : ∃ (n : Fin 1024) (d : Fin 64), i = ix2 n d := ⟨i 0, i 1, eq_ix2 i⟩
  rw [shapeCast_apply (View.ld X r1_0) shapeCasts_S1x1x1024x64_S1024x64 (ix2 n d)
    (ix4 (0 : Fin 1) (0 : Fin 1) n d) (by
      rw [Shape.rowMajor_val_four, Shape.rowMajor_val_two]
      show ((0 * 1 + 0) * 1024 + n.val) * 64 + d.val = n.val * 64 + d.val; omega)]
  show X _ = X _
  refine congrArg X (funext fun a => Fin.ext ?_)
  match a with
  | ⟨0, _⟩ => show 0 + 1 * 0 = 0; rfl
  | ⟨1, _⟩ => show 0 + 1 * 0 = 0; rfl
  | ⟨2, _⟩ => show 0 + 1 * n.val = n.val; omega
  | ⟨3, _⟩ => show 0 + 1 * d.val = d.val; omega

/-- The load of the block's second head. -/
theorem load_head1 (X : Vec Ideal S1x2x1024x64 .bf16) :
    shapeCast S1024x64 (View.ld X r1_1) shapeCasts_S1x1x1024x64_S1024x64 = headOfBlock X 1 := by
  funext i
  obtain ⟨n, d, rfl⟩ : ∃ (n : Fin 1024) (d : Fin 64), i = ix2 n d := ⟨i 0, i 1, eq_ix2 i⟩
  rw [shapeCast_apply (View.ld X r1_1) shapeCasts_S1x1x1024x64_S1024x64 (ix2 n d)
    (ix4 (0 : Fin 1) (0 : Fin 1) n d) (by
      rw [Shape.rowMajor_val_four, Shape.rowMajor_val_two]
      show ((0 * 1 + 0) * 1024 + n.val) * 64 + d.val = n.val * 64 + d.val; omega)]
  show X _ = X _
  refine congrArg X (funext fun a => Fin.ext ?_)
  match a with
  | ⟨0, _⟩ => show 0 + 1 * 0 = 0; rfl
  | ⟨1, _⟩ => show 1 + 1 * 0 = 1; rfl
  | ⟨2, _⟩ => show 0 + 1 * n.val = n.val; omega
  | ⟨3, _⟩ => show 0 + 1 * d.val = d.val; omega

/-! ## The output block at an index -/

theorem hz3 : (![0, 0, 0] : Fin 3 → Nat) = fun _ => 0 := funext fun a => by fin_cases a <;> rfl

/-- What one head contributes at position `n`, lane `d`: the softmax weights of the scaled scores against the values. -/
def blockHead (x0 x1 x2 : Vec Ideal S1x2x1024x64 .bf16) (hh : Fin 2) (n : Fin 1024) (d : Fin 64) : EReal :=
  ∑ m : Fin 1024, Cert.Spec.weight
    (fun m' => ∑ d' : Fin 64, (x0 (ix4 (0 : Fin 1) hh n d') * Cert.Spec.scale) * x1 (ix4 (0 : Fin 1) hh m' d')) m
      * x2 (ix4 (0 : Fin 1) hh m d)

/-- The chain on head `hh` of the blocks is that head's contribution. -/
theorem chain_head (x0 x1 x2 : Vec Ideal S1x2x1024x64 .bf16) (hh : Fin 2) (n : Fin 1024) (d : Fin 64) :
    AttBody.headChain (mulf (headOfBlock x0 hh) (broadcast S1024x64 (Scalar.ofBits (F := Ideal) .bf16 0x3E00#16)))
        (headOfBlock x1 hh) (headOfBlock x2 hh) (ix2 n d)
      = blockHead x0 x1 x2 hh n d := by
  rw [AttBody.headChain_apply]
  rfl

/-- Columns 0 … 63 of the stored block: the first head. -/
theorem out_left (x0 x1 x2 : Vec Ideal S1x2x1024x64 .bf16) (n : Fin 1024) (d : Fin 64) :
    out1_3 (F := Ideal) x0 x1 x2 (ix3 (0 : Fin 1) n (⟨d.val, by omega⟩ : Fin 128)) = blockHead x0 x1 x2 0 n d := by
  unfold out1_3
  rw [View.canon_unit_zero hz3, pay1_eq]
  rw [shapeCast_apply _ shapeCasts_S1024x128_S1x1024x128 (ix3 (0 : Fin 1) n (⟨d.val, by omega⟩ : Fin 128))
    (ix2 n (⟨d.val, by omega⟩ : Fin 128)) (by
      rw [Shape.rowMajor_val_two, Shape.rowMajor_val_three]
      show n.val * 128 + d.val = (0 * 1024 + n.val) * 128 + d.val; omega)]
  rw [concatenate_pair_apply_left (1 : Fin S1024x128.rank) _ _ concatenates_S1024x64_S1024x64_S1024x128_d1
    (ix2 n (⟨d.val, by omega⟩ : Fin 128)) rfl (ix2 n d) (fun b => by
      match b with
      | ⟨0, _⟩ => rfl
      | ⟨1, _⟩ => rfl)]
  rw [pay2_eq, load_head0, load_head0, load_head0]
  exact chain_head x0 x1 x2 0 n d

/-- Columns 64 … 127 of the stored block: the second head. -/
theorem out_right (x0 x1 x2 : Vec Ideal S1x2x1024x64 .bf16) (n : Fin 1024) (d : Fin 64) :
    out1_3 (F := Ideal) x0 x1 x2 (ix3 (0 : Fin 1) n (⟨64 + d.val, by omega⟩ : Fin 128)) = blockHead x0 x1 x2 1 n d := by
  unfold out1_3
  rw [View.canon_unit_zero hz3, pay1_eq]
  rw [shapeCast_apply _ shapeCasts_S1024x128_S1x1024x128 (ix3 (0 : Fin 1) n (⟨64 + d.val, by omega⟩ : Fin 128))
    (ix2 n (⟨64 + d.val, by omega⟩ : Fin 128)) (by
      rw [Shape.rowMajor_val_two, Shape.rowMajor_val_three]
      show n.val * 128 + (64 + d.val) = (0 * 1024 + n.val) * 128 + (64 + d.val); omega)]
  rw [concatenate_pair_apply_right (1 : Fin S1024x128.rank) _ _ concatenates_S1024x64_S1024x64_S1024x128_d1
    (ix2 n (⟨64 + d.val, by omega⟩ : Fin 128)) rfl rfl (ix2 n d) (fun b hb => by
      match b with
      | ⟨0, _⟩ => rfl
      | ⟨1, _⟩ => exact absurd rfl hb) (by show d.val + 64 = 64 + d.val; omega)]
  show AttBody.headChain (mulf (shapeCast S1024x64 (View.ld x0 r1_1) shapeCasts_S1x1x1024x64_S1024x64)
      (broadcast S1024x64 (Scalar.ofBits (F := Ideal) .bf16 0x3E00#16)))
    (shapeCast S1024x64 (View.ld x1 r1_1) shapeCasts_S1x1x1024x64_S1024x64)
    (shapeCast S1024x64 (View.ld x2 r1_1) shapeCasts_S1x1x1024x64_S1024x64) (ix2 n d) = _
  rw [load_head1, load_head1, load_head1]
  exact chain_head x0 x1 x2 1 n d

/-- The stored block at any index: column `c` of row `n` is lane `c % 64` of head `c / 64` of the pair. -/
theorem out_apply' (x0 x1 x2 : Vec Ideal S1x2x1024x64 .bf16) (j : S1x1024x128.Idx) (hh : Fin 2) (n : Fin 1024)
    (d : Fin 64) (e1 : (j 1).val = n.val) (e2 : (j 2).val = hh.val * 64 + d.val) :
    out1_3 (F := Ideal) x0 x1 x2 j = blockHead x0 x1 x2 hh n d := by
  have h0 : (j 0).val < 1 := (j 0).isLt
  match hh, e2 with
  | ⟨0, _⟩, e2 =>
    have e2' : (j 2).val = 0 * 64 + d.val := e2
    have e : j = ix3 (0 : Fin 1) n (⟨d.val, by omega⟩ : Fin 128) := funext fun a => Fin.ext (by
      match a with
      | ⟨0, _⟩ => show (j 0).val = 0; omega
      | ⟨1, _⟩ => exact e1
      | ⟨2, _⟩ => show (j 2).val = d.val; omega)
    exact (congrArg (out1_3 (F := Ideal) x0 x1 x2) e).trans (out_left x0 x1 x2 n d)
  | ⟨1, _⟩, e2 =>
    have e2' : (j 2).val = 1 * 64 + d.val := e2
    have e : j = ix3 (0 : Fin 1) n (⟨64 + d.val, by omega⟩ : Fin 128) := funext fun a => Fin.ext (by
      match a with
      | ⟨0, _⟩ => show (j 0).val = 0; omega
      | ⟨1, _⟩ => exact e1
      | ⟨2, _⟩ => show (j 2).val = 64 + d.val; omega)
    exact (congrArg (out1_3 (F := Ideal) x0 x1 x2) e).trans (out_right x0 x1 x2 n d)

end Cert.KernelIdeal.RegionAtt

end
-- ==== Proof.RegionAttArray.lean ====
/-
  The attention region's output array: the stored block at an index (`RegionAtt`) under the window side
  (`RegionAttCover`). At index `j` of a block the head of the pair is `j₂ / 64`, the position `j₁`, the lane `j₂ % 64`,
  and `j₂ = (j₂ / 64) · 64 + j₂ % 64`.
-/
import proofs.«102136_j2851858284976_2_alg».proof.Proof.RegionAtt
import proofs.«102136_j2851858284976_2_alg».proof.Proof.RegionAttCover

set_option maxRecDepth 16384

noncomputable section

namespace Cert.KernelIdeal.RegionAtt

open Idealize.ShloMosaic Idealize.ShloMosaic.TcCoe Idealize.ShloMosaic.ValueIdx Idealize.SL.Sem
open Cert.KernelIdeal Cert.KernelIdeal.Gen

/-- What the body leaves at every index of its block. -/
theorem out_apply (x0 x1 x2 : Vec Ideal S1x2x1024x64 .bf16) (j : S1x1024x128.Idx) :
    out1_3 (F := Ideal) x0 x1 x2 j = RegionAttCover.blockAt x0 x1 x2 j :=
  out_apply' x0 x1 x2 j (RegionAttCover.hOf j) (RegionAttCover.nOf j) (RegionAttCover.dOf j) rfl (by
    show (j 2).val = (j 2).val / 64 * 64 + (j 2).val % 64
    omega)

/-- After the attention region the output array holds the attention of the three per-head arrays as the region found
    them, the heads side by side. -/
theorem final (V : (c : Dev nD) → (b : Ref sig .tc) → Buf (Elt Ideal) ((c : Thread nD τ).loc b)) (c : Dev nD) :
    (Gen.dat1 (F := Ideal) V c).arrAt 3 cfg1.N = Cert.Spec.att (V c main_v5) (V c main_v7) (V c main_v9) :=
  RegionAttCover.final out_apply V c

end Cert.KernelIdeal.RegionAtt

end
-- ==== Proof.RegionOut.lean ====
/-
  The output projection of the kernel (its third region: a (8192 × 1024) by (1024 × 1024) matrix product with a bias
  row added, computed 512 rows at a time) leaves, in its output array, the product-with-bias of the three arrays it
  reads; and that product, read in the batch layout, is the last projection of the reference.
-/
import proofs.«102136_j2851858284976_2_alg».proof.Proof.Gen.KernelIdeal.Frame
import proofs.«102136_j2851858284976_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionOut

open Idealize.ShloMosaic Idealize.ShloMosaic.TcCoe Idealize.ShloMosaic.ValueIdx Idealize.SL.Sem Cert.KernelIdeal Cert.KernelIdeal.Gen
open Idealize.ShloMosaic.Pipeline (Dat Cfg Window)

/-! ## The body's payload at an index -/

abbrev D2 := dot_S512x1024_S1024x1024_S512x1024_1_0_0_1_n_n

theorem lhs_0 (i : S512x1024.Idx) (q : D2.contr.Idx) : (D2.lhsIdx i q 0).val = (i 0).val := by
  unfold DotDims.lhsIdx
  rw [dif_neg (show ¬(0 : Fin S512x1024.rank) ∈ D2.lhsBatch by decide), dif_pos (show (0 : Fin S512x1024.rank) ∈ D2.lhsNonContracting by decide)]
  rfl
theorem lhs_1 (i : S512x1024.Idx) (q : D2.contr.Idx) : (D2.lhsIdx i q 1).val = (q ⟨0, by decide⟩).val :=
  D2.lhsIdx_val_of_single rfl i q
theorem rhs_0 (i : S512x1024.Idx) (q : D2.contr.Idx) : (D2.rhsIdx i q 0).val = (q ⟨0, by decide⟩).val :=
  D2.rhsIdx_val_of_single rfl i q
theorem rhs_1 (i : S512x1024.Idx) (q : D2.contr.Idx) : (D2.rhsIdx i q 1).val = (i 1).val := by
  unfold DotDims.rhsIdx
  rw [dif_neg (show ¬(1 : Fin S1024x1024.rank) ∈ D2.rhsBatch by decide), dif_pos (show (1 : Fin S1024x1024.rank) ∈ D2.rhsNonContracting by decide)]
  rfl

/-- The left operand index of the product at output index `(p, q)` and contraction index `k` is `(p, k)`. -/
theorem lhsIdx_eq (p : Fin 512) (q : Fin 1024) (k : Fin 1024) :
    D2.lhsIdx (ix2 p q) ((contrEquiv1 D2 1024 rfl rfl).symm k) = ix2 p k := by
  have hk := contrEquiv1_symm_val D2 1024 rfl rfl k
  funext a
  apply Fin.ext
  match a with
  | ⟨0, _⟩ => exact lhs_0 _ _
  | ⟨1, _⟩ => exact (lhs_1 _ _).trans hk

/-- The right operand index is `(k, q)`. -/
theorem rhsIdx_eq (p : Fin 512) (q : Fin 1024) (k : Fin 1024) :
    D2.rhsIdx (ix2 p q) ((contrEquiv1 D2 1024 rfl rfl).symm k) = ix2 k q := by
  have hk := contrEquiv1_symm_val D2 1024 rfl rfl k
  funext a
  apply Fin.ext
  match a with
  | ⟨0, _⟩ => exact (rhs_0 _ _).trans hk
  | ⟨1, _⟩ => exact rhs_1 _ _

/-- The payload at `(p, q)`: the row of the left block against the column of the right one, plus the bias entry. -/
theorem pay_apply (x0 : Vec Ideal S512x1024 .bf16) (x1 : Vec Ideal S1024x1024 .f32) (x2 : Vec Ideal S1x1024 .f32)
    (p : Fin 512) (q : Fin 1024) :
    k2_pay1 (F := Ideal) x0 x1 x2 (ix2 p q) = (∑ k : Fin 1024, x0 (ix2 p k) * x1 (ix2 k q)) + x2 (ix2 0 q) := by
  unfold k2_pay1
  rw [shapeCast_self, shapeCast_self, shapeCast_self]
  refine (addf_apply _ _ _).trans ?_
  congr 1
  · refine (Ideal.matmul_constant_zero_apply D2 none _ _ _).trans ?_
    rw [← Equiv.sum_comp (contrEquiv1 D2 1024 rfl rfl).symm]
    refine Finset.sum_congr rfl fun k _ => ?_
    rw [lhsIdx_eq, rhsIdx_eq]
    rfl
  · exact broadcastTo_apply x2 _ (ix2 p q) (ix2 0 q) (fun a => by
      match a with
      | ⟨0, _⟩ => rfl
      | ⟨1, _⟩ => rfl)

/-! ## Where the windows' blocks sit -/

theorem hz : (![0, 0] : Fin 2 → Nat) = fun _ => 0 := funext fun a => by fin_cases a <;> rfl

/-- The index maps over the sixteen grid points: the left operand's block moves with the output's along the rows and
    is the whole width; the right operand and the bias row are one block each; the output's block is the whole
    width, at the row offset the point's number names. -/
theorem idx_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) = t.val :=
  (by decide +kernel : ∀ t : Fin grid2.N, _)

variable (V : (c : Dev nD) → (b : Ref sig .tc) → Buf (Elt Ideal) ((c : Thread nD τ).loc b))

/-- What a grid point writes back is its block of the product-with-bias of the three arrays the region reads. -/
theorem flushed_eq (c : Dev nD) (t : Fin cfg2.N) :
    (dat2 (F := Ideal) V c).flushed 3 t
      = ((cfg2.win 3).blk t).view.read (Elt Ideal) (Cert.Spec.projBias (V c main_v11) (V c main_v12) (V c main_v13)) := by
  show (cfg2.win 3).cut (grid2.coords t) ((dat2 V c).after 3 t) = _
  rw [after2_3]
  unfold out2_3
  rw [View.canon_unit_zero hz]
  simp only [View.ld_unit_zero (S := S512x1024) hz, View.ld_unit_zero (S := S1024x1024) hz, View.ld_unit_zero (S := S1x1024) hz]
  obtain ⟨e0, e1, e2, e3, e4, e5, e6, e7⟩ := idx_facts t
  have ht : t.val < 16 := t.isLt
  funext j
  obtain ⟨p, q, rfl⟩ : ∃ (p : Fin 512) (q : Fin 1024), j = ix2 p q := ⟨j 0, j 1, eq_ix2 j⟩
  have hp : p.val < 512 := p.isLt
  have hq : q.val < 1024 := q.isLt
  -- the array row under row `p` of the block at point `t`
  obtain ⟨r, hr⟩ : ∃ r : Fin 8192, r.val = t.val * 512 + p.val := ⟨⟨t.val * 512 + p.val, by omega⟩, rfl⟩
  show k2_pay1 (F := Ideal) (iblk2 V c 0 t) (iblk2 V c 1 t) (iblk2 V c 2 t) (ix2 p q)
     = Cert.Spec.projBias (V c main_v11) (V c main_v12) (V c main_v13) (((cfg2.win 3).blk t).view.emb (ix2 p q))
  have h3 : ((cfg2.win 3).blk t).view.emb (ix2 p q) = ix2 r q := by
    funext a; apply Fin.ext
    match a with
    | ⟨0, _⟩ => show win2_3.index t (0 : Fin 2) * 512 + 1 * p.val = r.val; omega
    | ⟨1, _⟩ => show win2_3.index t (1 : Fin 2) * 1024 + 1 * q.val = q.val; omega
  rw [pay_apply, h3, Cert.Spec.projBias_apply]
  have h0 : ∀ k : Fin 1024, iblk2 V c 0 t (ix2 p k) = V c main_v11 (ix2 r k) := fun k => by
    have hk : k.val < 1024 := k.isLt
    show V c main_v11 (((cfg2.win 0).blk t).view.emb (ix2 p k)) = V c main_v11 (ix2 r k)
    refine congrArg (V c main_v11) (funext fun a => Fin.ext ?_)
    match a with
    | ⟨0, _⟩ => show win2_0.index t (0 : Fin 2) * 512 + 1 * p.val = r.val; omega
    | ⟨1, _⟩ => show win2_0.index t (1 : Fin 2) * 1024 + 1 * k.val = k.val; omega
  have h1 : ∀ k : Fin 1024, iblk2 V c 1 t (ix2 k q) = V c main_v12 (ix2 k q) := fun k => by
    have hk : k.val < 1024 := k.isLt
    show V c main_v12 (((cfg2.win 1).blk t).view.emb (ix2 k q)) = V c main_v12 (ix2 k q)
    refine congrArg (V c main_v12) (funext fun a => Fin.ext ?_)
    match a with
    | ⟨0, _⟩ => show win2_1.index t (0 : Fin 2) * 1024 + 1 * k.val = k.val; omega
    | ⟨1, _⟩ => show win2_1.index t (1 : Fin 2) * 1024 + 1 * q.val = q.val; omega
  have h2 : iblk2 V c 2 t (ix2 0 q) = V c main_v13 (ix2 0 q) := by
    show V c main_v13 (((cfg2.win 2).blk t).view.emb (ix2 0 q)) = V c main_v13 (ix2 0 q)
    refine congrArg (V c main_v13) (funext fun a => Fin.ext ?_)
    match a with
    | ⟨0, _⟩ => show win2_2.index t (0 : Fin 2) * 1 + 1 * 0 = 0; omega
    | ⟨1, _⟩ => show win2_2.index t (1 : Fin 2) * 1024 + 1 * q.val = q.val; omega
  rw [h2]
  exact congrArg (· + V c main_v13 (ix2 0 q)) (Finset.sum_congr rfl fun k _ => by rw [h0 k, h1 k])

/-! ## The output's blocks tile the array -/

/-- An index of the array is in point `t`'s block iff each coordinate is in the block's range on its axis. -/
theorem mem_blk (t : Fin cfg2.N) (i : S8192x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v14).slice (win2_3.rect t)).set ↔ _
  rw [View.set_slice_whole, Rect.mem_set_unit]
  exact Iff.rfl

/-- Row `r` of the array is in the block of the point numbered `r / 512`. -/
theorem cover (i : S8192x1024.Idx) : ∃ t : Fin cfg2.N, (cfg2.win 3).flush t = true ∧ i ∈ ((cfg2.win 3).blk t).view.set := by
  have hi0 : (i 0).val < 8192 := (i 0).isLt
  have hi1 : (i 1).val < 1024 := (i 1).isLt
  obtain ⟨t, ht⟩ : ∃ t : Fin cfg2.N, t.val = (i 0).val / 512 := ⟨⟨(i 0).val / 512, by show _ < 16; omega⟩, rfl⟩
  obtain ⟨e0, e1, e2, e3, e4, e5, e6, e7⟩ := idx_facts t
  refine ⟨t, flush2_3 t, ?_⟩
  rw [mem_blk]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- THE OUTPUT ARRAY after the region: the product of the first array by the second, the third's row added to every row. -/
theorem final (V : (c : Dev nD) → (b : Ref sig .tc) → Buf (Elt Ideal) ((c : Thread nD τ).loc b)) (c : Dev nD) :
    (Gen.dat2 (F := Ideal) V c).arrAt 3 cfg2.N = Cert.Spec.projBias (V c main_v11) (V c main_v12) (V c main_v13) :=
  (dat2 (F := Ideal) V c).arrAt_eq_of_cover 3 _ (fun t _ => flushed_eq V c t) cover

/-! ## The same product in the batch layout -/

/-- Row `r` of the flattened array is batch `r / 1024`, position `r % 1024`: the product-with-bias of the flattened
    activations, the transposed weight and the bias as a one-row matrix, folded back to batches, is the last
    projection. -/
theorem out_layout (y : S8x1024x1024.Idx → EReal) (w : S1024x1024.Idx → EReal) (β : S1024.Idx → EReal)
    (h1 : S8x1024x1024.ShapeCasts S8192x1024) (h2 : S1024x1024.Transposes [1, 0] S1024x1024)
    (h3 : S1024.ShapeCasts S1x1024) (h4 : S8192x1024.ShapeCasts S8x1024x1024) :
    shapeCast S8x1024x1024 (Cert.Spec.projBias (shapeCast S8192x1024 y h1) (transpose S1024x1024 [1, 0] w h2) (shapeCast S1x1024 β h3)) h4
      = Cert.Spec.outProj y w β := by
  funext i
  obtain ⟨b, n, e, rfl⟩ : ∃ (b : Fin 8) (n : Fin 1024) (e : Fin 1024), i = ix3 b n e := ⟨i 0, i 1, i 2, eq_ix3 i⟩
  have hb : b.val < 8 := b.isLt
  have hn : n.val < 1024 := n.isLt
  have he : e.val < 1024 := e.isLt
  obtain ⟨r, hr⟩ : ∃ r : Fin 8192, r.val = b.val * 1024 + n.val := ⟨⟨b.val * 1024 + n.val, by omega⟩, rfl⟩
  refine (shapeCast_apply _ h4 (ix3 b n e) (ix2 r e) ?_).trans ?_
  · rw [Shape.rowMajor_val_two, Shape.rowMajor_val_three]
    show r.val * 1024 + e.val = (b.val * 1024 + n.val) * 1024 + e.val
    omega
  rw [Cert.Spec.projBias_apply, Cert.Spec.outProj_apply]
  congr 1
  · refine Finset.sum_congr rfl fun k _ => ?_
    have hk : k.val < 1024 := k.isLt
    congr 1
    · refine shapeCast_apply y h1 (ix2 r k) (ix3 b n k) ?_
      rw [Shape.rowMajor_val_two, Shape.rowMajor_val_three]
      show (b.val * 1024 + n.val) * 1024 + k.val = r.val * 1024 + k.val
      omega
    · exact transpose_apply [1, 0] w h2 (ix2 k e) (ix2 e k) (fun a => by
        match a with
        | ⟨0, _⟩ => rfl
        | ⟨1, _⟩ => rfl)
  · refine shapeCast_apply β h3 (ix2 0 e) (ix1 e) ?_
    rw [Shape.rowMajor_val_two, Shape.rowMajor_val_one]
    show e.val = 0 * 1024 + e.val
    omega

end Cert.KernelIdeal.RegionOut

end
-- ==== Proof.RefRead.lean ====
import proofs.«102136_j2851858284976_2_alg».proof.Proof.Gen.ReferenceIdeal.Read
import proofs.«102136_j2851858284976_2_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.RefRead

open Idealize.ShloMosaic Idealize.ShloMosaic.TcCoe Idealize.ShloMosaic.ValueIdx Idealize.SL.Sem Cert.ReferenceIdeal Cert.ReferenceIdeal.Read

/-! ## The two projections -/

/-- The first projection of the reference is the product of every row with every row of the weight. -/
theorem v0_eq (x0 : (⟨S8x1024x1024, .f32⟩ : BufTy).Contents (Elt Ideal)) (x1 : (⟨S3072x1024, .f32⟩ : BufTy).Contents (Elt Ideal)) :
    Read.val_main_v0 (F := Ideal) x0 x1 = Cert.Spec.qkv x0 x1 := by
  funext i
  obtain ⟨b, n, e, rfl⟩ : ∃ (b : Fin 8) (n : Fin 1024) (e : Fin 3072), i = ix3 b n e := ⟨i 0, i 1, i 2, eq_ix3 i⟩
  rw [val_main_v0_apply, Cert.Spec.qkv_apply]
  refine Finset.sum_congr rfl fun k _ => ?_
  have el : lidx_main_v0 (ix3 b n e) k = ix3 b n k :=
    funext fun a => Fin.ext (by match a with | ⟨0, _⟩ => rfl | ⟨1, _⟩ => rfl | ⟨2, _⟩ => rfl)
  have er : ridx_main_v0 (ix3 b n e) k = ix2 e k :=
    funext fun a => Fin.ext (by match a with | ⟨0, _⟩ => rfl | ⟨1, _⟩ => rfl)
  rw [el, er]

/-- The last projection of the reference is the product of the attention rows with the rows of the weight, plus the bias. -/
theorem v28_eq (x0 : (⟨S8x1024x1024, .f32⟩ : BufTy).Contents (Elt Ideal)) (x1 : (⟨S3072x1024, .f32⟩ : BufTy).Contents (Elt Ideal))
    (x2 : (⟨S1024x1024, .f32⟩ : BufTy).Contents (Elt Ideal)) (x3 : (⟨S1024, .f32⟩ : BufTy).Contents (Elt Ideal)) :
    Read.val_main_v28 (F := Ideal) x0 x1 x2 x3 = Cert.Spec.outProj (Read.val_main_v24 (F := Ideal) x0 x1) x2 x3 := by
  funext i
  obtain ⟨b, n, e, rfl⟩ : ∃ (b : Fin 8) (n : Fin 1024) (e : Fin 1024), i = ix3 b n e := ⟨i 0, i 1, i 2, eq_ix3 i⟩
  rw [val_main_v28_apply, val_main_v25_apply, val_main_v27_apply, val_main_v26_apply, Cert.Spec.outProj_apply]
  generalize val_main_v24 (F := Ideal) x0 x1 = y
  show (∑ k : Fin 1024, y (lidx_main_v25 (ix3 b n e) k) * x2 (ridx_main_v25 (ix3 b n e) k))
      + x3 (idx_main_v26 (idx_main_v27 (ix3 b n e))) = _
  have eb : idx_main_v26 (idx_main_v27 (ix3 b n e)) = ix1 e :=
    funext fun a => Fin.ext (by match a with | ⟨0, _⟩ => rfl)
  rw [eb]
  refine congrArg (· + x3 (ix1 e)) (Finset.sum_congr rfl fun k _ => ?_)
  have el : lidx_main_v25 (ix3 b n e) k = ix3 b n k :=
    funext fun a => Fin.ext (by match a with | ⟨0, _⟩ => rfl | ⟨1, _⟩ => rfl | ⟨2, _⟩ => rfl)
  have er : ridx_main_v25 (ix3 b n e) k = ix2 e k :=
    funext fun a => Fin.ext (by match a with | ⟨0, _⟩ => rfl | ⟨1, _⟩ => rfl)
  rw [el, er]

/-! ## Extended-real facts the attention proof needs -/

/-- The thirty-two-bit word `0x3E000000` denotes one eighth. -/
theorem ofBits_f32_eighth : Ideal.ofBits .f32 0x3E000000#32 = ((0.125 : ℝ) : EReal) := by
  simp [Ideal.ofBits, Ideal.ieee, -EReal.coe_mul]; norm_num

/-- The sixteen-bit word `0x3E00` denotes one eighth too. -/
theorem ofBits_bf16_eighth : Ideal.ofBits .bf16 0x3E00#16 = ((0.125 : ℝ) : EReal) := by
  simp [Ideal.ofBits, Ideal.ieee, -EReal.coe_mul]; norm_num

/-- The word `0xFF800000` denotes −∞. -/
theorem ofBits_f32_negInf : Ideal.ofBits .f32 0xFF800000#32 = (⊥ : EReal) := by
  simp [Ideal.ofBits, Ideal.ieee]

/-- A nonnegative real factor comes out of a finite sum of extended reals, whatever the summands are. -/
theorem sum_mul_coe_of_nonneg {ι : Type*} (s : Finset ι) (f : ι → EReal) (c : ℝ) (hc : 0 ≤ c) :
    ∑ d ∈ s, f d * (c : EReal) = (∑ d ∈ s, f d) * (c : EReal) := by
  classical
  induction s using Finset.induction_on with
  | empty => simp
  | insert a s ha ih =>
    rw [Finset.sum_insert ha, Finset.sum_insert ha, ih,
      EReal.right_distrib_of_nonneg_of_ne_top (EReal.coe_nonneg.2 hc) (EReal.coe_ne_top c)]

/-- Scaling the left factor of every product of a sum by a nonnegative real scales the sum. -/
theorem sum_scale_left {ι : Type*} (s : Finset ι) (a b : ι → EReal) (c : ℝ) (hc : 0 ≤ c) :
    ∑ d ∈ s, (a d * (c : EReal)) * b d = (∑ d ∈ s, a d * b d) * (c : EReal) := by
  rw [← sum_mul_coe_of_nonneg s (fun d => a d * b d) c hc]
  exact Finset.sum_congr rfl fun d _ => mul_right_comm _ _ _

/-! ## The attention stages, each read at an index in closed form -/

/-- The index of the reduced array with coordinate `m` put back on the last axis. -/
theorem lift_ix4 (h : S8x16x1024x1024.Reduces [3] S8x16x1024) (b : Fin 8) (hd : Fin 16) (n : Fin 1024)
    (m : Fin (S8x16x1024x1024.size 3)) : h.lift (ix3 b hd n) m = ix4 b hd n (⟨m.val, m.isLt⟩ : Fin 1024) := by
  funext c; apply Fin.ext
  fin_cases c <;> rfl

/-- The scaled scores: the reference multiplies the product by one eighth, the specification scales the query first. -/
theorem v10_at (x0 : (⟨S8x1024x1024, .f32⟩ : BufTy).Contents (Elt Ideal)) (x1 : (⟨S3072x1024, .f32⟩ : BufTy).Contents (Elt Ideal))
    (b : Fin 8) (hd : Fin 16) (n m : Fin 1024) :
    val_main_v10 (F := Ideal) x0 x1 (ix4 b hd n m)
      = Cert.Spec.score (val_main_v3 (F := Ideal) x0 x1) (val_main_v5 (F := Ideal) x0 x1) b hd n m := by
  rw [val_main_v10_apply, val_main_v8_apply, val_main_v9_apply, val_main_cst_apply]
  generalize val_main_v3 (F := Ideal) x0 x1 = q
  generalize val_main_v5 (F := Ideal) x0 x1 = k
  show (∑ d : Fin 64, q (lidx_main_v8 (ix4 b hd n m) d) * k (ridx_main_v8 (ix4 b hd n m) d)) * Ideal.ofBits .f32 0x3E000000#32 = _
  unfold Cert.Spec.score Cert.Spec.scale
  rw [ofBits_f32_eighth, ofBits_bf16_eighth, sum_scale_left _ _ _ _ (by norm_num)]
  refine congrArg (· * ((0.125 : ℝ) : EReal)) (Finset.sum_congr rfl fun d _ => ?_)
  have el : lidx_main_v8 (ix4 b hd n m) d = ix4 b hd n d :=
    funext fun a => Fin.ext (by match a with | ⟨0, _⟩ => rfl | ⟨1, _⟩ => rfl | ⟨2, _⟩ => rfl | ⟨3, _⟩ => rfl)
  have er : ridx_main_v8 (ix4 b hd n m) d = ix4 b hd m d :=
    funext fun a => Fin.ext (by match a with | ⟨0, _⟩ => rfl | ⟨1, _⟩ => rfl | ⟨2, _⟩ => rfl | ⟨3, _⟩ => rfl)
  rw [el, er]

/-- The reference's maximum over the key axis, folded from −∞, is the row maximum of the scores. -/
theorem v11_at (x0 : (⟨S8x1024x1024, .f32⟩ : BufTy).Contents (Elt Ideal)) (x1 : (⟨S3072x1024, .f32⟩ : BufTy).Contents (Elt Ideal))
    (b : Fin 8) (hd : Fin 16) (n : Fin 1024) :
    val_main_v11 (F := Ideal) x0 x1 (ix3 b hd n)
      = Cert.Spec.rowMax (Cert.Spec.score (val_main_v3 (F := Ideal) x0 x1) (val_main_v5 (F := Ideal) x0 x1) b hd n) := by
  have h : S8x16x1024x1024.Reduces [3] S8x16x1024 := by decide
  unfold val_main_v11
  refine (Host.reduce_eq_fold_single (FloatOps.maximumf (F := Ideal) (φ := .f32)) (val_main_v10 (F := Ideal) x0 x1)
    (val_main_cst_0 (F := Ideal)) Gen.reducesTo_S8x16x1024x1024_S8x16x1024_d3 h Gen.h_S_ (ix3 b hd n)).trans ?_
  have hf : (val_main_v10 (F := Ideal) x0 x1 ∘ h.lift (ix3 b hd n))
      = Cert.Spec.score (val_main_v3 (F := Ideal) x0 x1) (val_main_v5 (F := Ideal) x0 x1) b hd n :=
    funext fun m => (congrArg (val_main_v10 (F := Ideal) x0 x1) (lift_ix4 h b hd n m)).trans (v10_at x0 x1 b hd n _)
  rw [hf]
  rfl

/-- The row maximum broadcast back along the key axis; the outer maximum with −∞ changes nothing. -/
theorem v15_at (x0 : (⟨S8x1024x1024, .f32⟩ : BufTy).Contents (Elt Ideal)) (x1 : (⟨S3072x1024, .f32⟩ : BufTy).Contents (Elt Ideal))
    (b : Fin 8) (hd : Fin 16) (n m : Fin 1024) :
    val_main_v15 (F := Ideal) x0 x1 (ix4 b hd n m) = Cert.Spec.rowMax (Cert.Spec.score (val_main_v3 (F := Ideal) x0 x1) (val_main_v5 (F := Ideal) x0 x1) b hd n) := by
  rw [val_main_v15_apply, val_main_v14_apply, val_main_v13_apply, val_main_v12_apply, val_main_cst_1_apply]
  have e : idx_main_v14 (idx_main_v15 (ix4 b hd n m)) = ix3 b hd n :=
    funext fun a => Fin.ext (by match a with | ⟨0, _⟩ => rfl | ⟨1, _⟩ => rfl | ⟨2, _⟩ => rfl)
  rw [e, v11_at]
  show max (Ideal.ofBits .f32 0xFF800000#32) _ = _
  rw [ofBits_f32_negInf]
  exact max_eq_right bot_le

/-- The unnormalised weights. -/
theorem v17_at (x0 : (⟨S8x1024x1024, .f32⟩ : BufTy).Contents (Elt Ideal)) (x1 : (⟨S3072x1024, .f32⟩ : BufTy).Contents (Elt Ideal))
    (b : Fin 8) (hd : Fin 16) (n m : Fin 1024) :
    val_main_v17 (F := Ideal) x0 x1 (ix4 b hd n m) = Cert.Spec.expShift (Cert.Spec.score (val_main_v3 (F := Ideal) x0 x1) (val_main_v5 (F := Ideal) x0 x1) b hd n) m := by
  rw [val_main_v17_apply, val_main_v16_apply, v10_at, v15_at]
  rfl

/-- The normaliser: the sum of the unnormalised weights, started from zero, broadcast back along the key axis. -/
theorem v20_at (x0 : (⟨S8x1024x1024, .f32⟩ : BufTy).Contents (Elt Ideal)) (x1 : (⟨S3072x1024, .f32⟩ : BufTy).Contents (Elt Ideal))
    (b : Fin 8) (hd : Fin 16) (n m : Fin 1024) :
    val_main_v20 (F := Ideal) x0 x1 (ix4 b hd n m) = ∑ m' : Fin 1024, Cert.Spec.expShift (Cert.Spec.score (val_main_v3 (F := Ideal) x0 x1) (val_main_v5 (F := Ideal) x0 x1) b hd n) m' := by
  rw [val_main_v20_apply, val_main_v19_apply, val_main_v18_apply, val_main_cst_2_apply]
  have e : idx_main_v19 (idx_main_v20 (ix4 b hd n m)) = ix3 b hd n :=
    funext fun a => Fin.ext (by match a with | ⟨0, _⟩ => rfl | ⟨1, _⟩ => rfl | ⟨2, _⟩ => rfl)
  rw [e]
  show Ideal.ofBits .f32 0x00000000#32 + _ = _
  rw [Ideal.ofBits_zero_f32, zero_add]
  refine Finset.sum_congr rfl fun m' _ => ?_
  have e' : idx_main_v18 (ix3 b hd n) m' = ix4 b hd n m' :=
    funext fun a => Fin.ext (by match a with | ⟨0, _⟩ => rfl | ⟨1, _⟩ => rfl | ⟨2, _⟩ => rfl | ⟨3, _⟩ => rfl)
  rw [e', v17_at]

/-- The softmax weights. -/
theorem v21_at (x0 : (⟨S8x1024x1024, .f32⟩ : BufTy).Contents (Elt Ideal)) (x1 : (⟨S3072x1024, .f32⟩ : BufTy).Contents (Elt Ideal))
    (b : Fin 8) (hd : Fin 16) (n m : Fin 1024) :
    val_main_v21 (F := Ideal) x0 x1 (ix4 b hd n m) = Cert.Spec.weight (Cert.Spec.score (val_main_v3 (F := Ideal) x0 x1) (val_main_v5 (F := Ideal) x0 x1) b hd n) m := by
  rw [val_main_v21_apply, v17_at, v20_at]
  rfl

/-- One lane of one head's output: the weights against the values. -/
theorem v22_at (x0 : (⟨S8x1024x1024, .f32⟩ : BufTy).Contents (Elt Ideal)) (x1 : (⟨S3072x1024, .f32⟩ : BufTy).Contents (Elt Ideal))
    (b : Fin 8) (hd : Fin 16) (n : Fin 1024) (d : Fin 64) :
    val_main_v22 (F := Ideal) x0 x1 (ix4 b hd n d)
      = Cert.Spec.headOut (val_main_v3 (F := Ideal) x0 x1) (val_main_v5 (F := Ideal) x0 x1) (val_main_v7 (F := Ideal) x0 x1) b hd n d := by
  rw [val_main_v22_apply]
  unfold Cert.Spec.headOut
  refine Finset.sum_congr rfl fun m _ => ?_
  have el : lidx_main_v22 (ix4 b hd n d) m = ix4 b hd n m :=
    funext fun a => Fin.ext (by match a with | ⟨0, _⟩ => rfl | ⟨1, _⟩ => rfl | ⟨2, _⟩ => rfl | ⟨3, _⟩ => rfl)
  have er : ridx_main_v22 (ix4 b hd n d) m = ix4 b hd m d :=
    funext fun a => Fin.ext (by match a with | ⟨0, _⟩ => rfl | ⟨1, _⟩ => rfl | ⟨2, _⟩ => rfl | ⟨3, _⟩ => rfl)
  rw [el, er, v21_at]

/-! ## Attention -/

/-- The reference's attention output, heads laid side by side along the feature axis, is the specification's:
    column `c` of row `(b, n)` is lane `c % 64` of head `c / 64`. -/
theorem v24_eq (x0 : (⟨S8x1024x1024, .f32⟩ : BufTy).Contents (Elt Ideal)) (x1 : (⟨S3072x1024, .f32⟩ : BufTy).Contents (Elt Ideal)) :
    Read.val_main_v24 (F := Ideal) x0 x1
      = Cert.Spec.att (Read.val_main_v3 (F := Ideal) x0 x1) (Read.val_main_v5 (F := Ideal) x0 x1) (Read.val_main_v7 (F := Ideal) x0 x1) := by
  funext i
  obtain ⟨b, n, c, rfl⟩ : ∃ (b : Fin 8) (n : Fin 1024) (c : Fin 1024), i = ix3 b n c := ⟨i 0, i 1, i 2, eq_ix3 i⟩
  rw [val_main_v24_apply, val_main_v23_apply, Cert.Spec.att_apply]
  have e : idx_main_v23 (idx_main_v24 (ix3 b n c)) = ix4 b (Cert.Spec.headOf c) n (Cert.Spec.laneOf c) :=
    funext fun a => Fin.ext (by
      have hb := b.isLt; have hn := n.isLt; have hc := c.isLt
      match a with
      | ⟨0, _⟩ => show ((b.val * 1024 + n.val) * 1024 + c.val) / 1048576 = b.val; omega
      | ⟨1, _⟩ => show ((b.val * 1024 + n.val) * 1024 + c.val) / 64 % 16 = c.val / 64; omega
      | ⟨2, _⟩ => show ((b.val * 1024 + n.val) * 1024 + c.val) / 1024 % 1024 = n.val; omega
      | ⟨3, _⟩ => show ((b.val * 1024 + n.val) * 1024 + c.val) % 64 = c.val % 64; omega)
  rw [e, v22_at]

end Cert.ReferenceIdeal.RefRead

end
-- ==== Proof.KernelValue.lean ====
import proofs.«102136_j2851858284976_2_alg».proof.Proof.Gen.KernelIdeal.Frame
import proofs.«102136_j2851858284976_2_alg».proof.Proof.Fold
import proofs.«102136_j2851858284976_2_alg».proof.Proof.Spec
import proofs.«102136_j2851858284976_2_alg».proof.Proof.RefRead

set_option maxRecDepth 16384

noncomputable section

namespace Cert.KernelIdeal.KernelValue

open Idealize.ShloMosaic Idealize.ShloMosaic.TcCoe Idealize.SL.Sem Idealize.ShloMosaic.StableHlo Cert.KernelIdeal Cert.KernelIdeal.Facts₀

/-- The first projection as the first region leaves it: the flattened input against the transposed weight. -/
def projected (x : S8x1024x1024.Idx → EReal) (w : S3072x1024.Idx → EReal) : S8192x3072.Idx → EReal :=
  Cert.Spec.proj (shapeCast S8192x1024 x shapeCasts_S8x1024x1024_S8192x1024) (transpose S1024x3072 [1, 0] w transposes_S3072x1024_S1024x3072_1_0)

/-- Attention of the three per-head arrays cut out of the projection. -/
def attended (x : S8x1024x1024.Idx → EReal) (w : S3072x1024.Idx → EReal) : S8x1024x1024.Idx → EReal :=
  Cert.Spec.att (Fold.part (F := Ideal) (projected x w) ![0, 0, 0, 0, 0] slices_S8x3x16x1024x64_S8x1x16x1024x64_0_0_0_0_0)
    (Fold.part (F := Ideal) (projected x w) ![0, 1, 0, 0, 0] slices_S8x3x16x1024x64_S8x1x16x1024x64_0_1_0_0_0)
    (Fold.part (F := Ideal) (projected x w) ![0, 2, 0, 0, 0] slices_S8x3x16x1024x64_S8x1x16x1024x64_0_2_0_0_0)

/-- The kernel program's result as one function of its four arguments. -/
def kernelTerm (x : S8x1024x1024.Idx → EReal) (w : S3072x1024.Idx → EReal) (wo : S1024x1024.Idx → EReal) (bo : S1024.Idx → EReal) : S8x1024x1024.Idx → EReal :=
  shapeCast S8x1024x1024 (Cert.Spec.projBias (shapeCast S8192x1024 (attended x w) shapeCasts_S8x1024x1024_S8192x1024)
    (transpose S1024x1024 [1, 0] wo transposes_S1024x1024_S1024x1024_1_0) (shapeCast S1x1024 bo shapeCasts_S1024_S1x1024)) shapeCasts_S8192x1024_S8x1024x1024

/-! ## The program's result, region by region -/

/-- Given what each region leaves in its output array, the buffer the program returns holds `kernelTerm` of the four
    arguments as launched. -/
theorem result
    (h0 : ∀ (V : (c : Dev nD) → (b : Ref sig .tc) → Buf (Elt Ideal) ((c : Thread nD τ).loc b)) (c : Dev nD),
      (Gen.dat0 (F := Ideal) V c).arrAt 2 cfg0.N = Cert.Spec.proj (V c main_v0) (V c main_v1))
    (h1 : ∀ (V : (c : Dev nD) → (b : Ref sig .tc) → Buf (Elt Ideal) ((c : Thread nD τ).loc b)) (c : Dev nD),
      (Gen.dat1 (F := Ideal) V c).arrAt 3 cfg1.N = Cert.Spec.att (V c main_v5) (V c main_v7) (V c main_v9))
    (h2 : ∀ (V : (c : Dev nD) → (b : Ref sig .tc) → Buf (Elt Ideal) ((c : Thread nD τ).loc b)) (c : Dev nD),
      (Gen.dat2 (F := Ideal) V c).arrAt 3 cfg2.N = Cert.Spec.projBias (V c main_v11) (V c main_v12) (V c main_v13))
    (m : (ℓ : Loc nD τ sig) → Buf (Elt Ideal) ℓ) (ρ : Dev nD → PrngReg) (c : Dev nD) :
    Gen.W7 m ρ c (Proc.devRef .tc main_v15)
      = kernelTerm (m ((c.tc : Thread nD τ).loc main_arg0)) (m ((c.tc : Thread nD τ).loc main_arg1))
          (m ((c.tc : Thread nD τ).loc main_arg2)) (m ((c.tc : Thread nD τ).loc main_arg3)) := by
  -- the four arguments are never written: every stage reads them as launched
  have hw0 : Gen.W0 m ρ c (Proc.devRef .tc main_arg0) = m ((c.tc : Thread nD τ).loc main_arg0) := rfl
  have hw1 : Gen.W0 m ρ c (Proc.devRef .tc main_arg1) = m ((c.tc : Thread nD τ).loc main_arg1) := rfl
  have hw2 : Gen.W4 m ρ c (Proc.devRef .tc main_arg2) = m ((c.tc : Thread nD τ).loc main_arg2) :=
    (Gen.W4_of_ne m ρ c main_arg2 (by decide)).trans ((Fold.keep1_arg2 (Gen.W2 m ρ c)).trans
      ((Gen.W2_of_ne m ρ c main_arg2 (by decide)).trans ((Fold.keep0_arg2 (Gen.W0 m ρ c)).trans rfl)))
  have hw3 : Gen.W4 m ρ c (Proc.devRef .tc main_arg3) = m ((c.tc : Thread nD τ).loc main_arg3) :=
    (Gen.W4_of_ne m ρ c main_arg3 (by decide)).trans ((Fold.keep1_arg3 (Gen.W2 m ρ c)).trans
      ((Gen.W2_of_ne m ρ c main_arg3 (by decide)).trans ((Fold.keep0_arg3 (Gen.W0 m ρ c)).trans rfl)))
  -- the first region's operands and its output
  have e0 : Gen.V1 m ρ c main_v0
      = shapeCast S8192x1024 (m ((c.tc : Thread nD τ).loc main_arg0)) shapeCasts_S8x1024x1024_S8192x1024 :=
    (Fold.rows_in (Gen.W0 m ρ c)).trans (by rw [hw0])
  have e1 : Gen.V1 m ρ c main_v1
      = transpose S1024x3072 [1, 0] (m ((c.tc : Thread nD τ).loc main_arg1)) transposes_S3072x1024_S1024x3072_1_0 :=
    (Fold.weight_in (Gen.W0 m ρ c)).trans (by rw [hw1])
  have e2 : Gen.W2 m ρ c (Proc.devRef .tc main_v2)
      = projected (m ((c.tc : Thread nD τ).loc main_arg0)) (m ((c.tc : Thread nD τ).loc main_arg1)) :=
    (Gen.W2_arr m ρ c 2).trans ((h0 (Gen.V1 m ρ) c).trans (by rw [e0, e1]; rfl))
  -- the second region's operands and its output
  have e5 : Gen.V3 m ρ c main_v5
      = Fold.part (F := Ideal) (projected (m ((c.tc : Thread nD τ).loc main_arg0)) (m ((c.tc : Thread nD τ).loc main_arg1)))
          ![0, 0, 0, 0, 0] slices_S8x3x16x1024x64_S8x1x16x1024x64_0_0_0_0_0 :=
    (Fold.queries (Gen.W2 m ρ c)).trans (by rw [e2])
  have e7 : Gen.V3 m ρ c main_v7
      = Fold.part (F := Ideal) (projected (m ((c.tc : Thread nD τ).loc main_arg0)) (m ((c.tc : Thread nD τ).loc main_arg1)))
          ![0, 1, 0, 0, 0] slices_S8x3x16x1024x64_S8x1x16x1024x64_0_1_0_0_0 :=
    (Fold.keys (Gen.W2 m ρ c)).trans (by rw [e2])
  have e9 : Gen.V3 m ρ c main_v9
      = Fold.part (F := Ideal) (projected (m ((c.tc : Thread nD τ).loc main_arg0)) (m ((c.tc : Thread nD τ).loc main_arg1)))
          ![0, 2, 0, 0, 0] slices_S8x3x16x1024x64_S8x1x16x1024x64_0_2_0_0_0 :=
    (Fold.values (Gen.W2 m ρ c)).trans (by rw [e2])
  have e10 : Gen.W4 m ρ c (Proc.devRef .tc main_v10)
      = attended (m ((c.tc : Thread nD τ).loc main_arg0)) (m ((c.tc : Thread nD τ).loc main_arg1)) :=
    (Gen.W4_arr m ρ c 3).trans ((h1 (Gen.V3 m ρ) c).trans (by rw [e5, e7, e9]; rfl))
  -- the third region's operands and its output
  have e11 : Gen.V5 m ρ c main_v11
      = shapeCast S8192x1024 (attended (m ((c.tc : Thread nD τ).loc main_arg0)) (m ((c.tc : Thread nD τ).loc main_arg1)))
          shapeCasts_S8x1024x1024_S8192x1024 :=
    (Fold.rows_mid (Gen.W4 m ρ c)).trans (by rw [e10])
  have e12 : Gen.V5 m ρ c main_v12
      = transpose S1024x1024 [1, 0] (m ((c.tc : Thread nD τ).loc main_arg2)) transposes_S1024x1024_S1024x1024_1_0 :=
    (Fold.weight_out (Gen.W4 m ρ c)).trans (by rw [hw2])
  have e13 : Gen.V5 m ρ c main_v13
      = shapeCast S1x1024 (m ((c.tc : Thread nD τ).loc main_arg3)) shapeCasts_S1024_S1x1024 :=
    (Fold.bias_row (Gen.W4 m ρ c)).trans (by rw [hw3])
  have e14 : Gen.W6 m ρ c (Proc.devRef .tc main_v14)
      = Cert.Spec.projBias
          (shapeCast S8192x1024 (attended (m ((c.tc : Thread nD τ).loc main_arg0)) (m ((c.tc : Thread nD τ).loc main_arg1)))
            shapeCasts_S8x1024x1024_S8192x1024)
          (transpose S1024x1024 [1, 0] (m ((c.tc : Thread nD τ).loc main_arg2)) transposes_S1024x1024_S1024x1024_1_0)
          (shapeCast S1x1024 (m ((c.tc : Thread nD τ).loc main_arg3)) shapeCasts_S1024_S1x1024) :=
    (Gen.W6_arr m ρ c 3).trans ((h2 (Gen.V5 m ρ) c).trans (by rw [e11, e12, e13]))
  -- the last reshape
  exact (Fold.rows_out (Gen.W6 m ρ c)).trans (by rw [e14]; rfl)

/-! ## The program's result against the reference -/

/-- One of the three per-head arrays cut out of the kernel's projection is the reference's, given that the two
    projections agree once reshaped to batch x {q, k, v} x head x position x lane. -/
theorem part_eq
    (hq : ∀ (x : S8x1024x1024.Idx → EReal) (w : S3072x1024.Idx → EReal)
      (h1 : S8x1024x1024.ShapeCasts S8192x1024) (h2 : S3072x1024.Transposes [1, 0] S1024x3072)
      (h3 : S8192x3072.ShapeCasts S8x3x16x1024x64) (h4 : (⟨3, ![8, 1024, 3072]⟩ : Shape).ShapeCasts S8x3x16x1024x64),
      shapeCast S8x3x16x1024x64 (Cert.Spec.proj (shapeCast S8192x1024 x h1) (transpose S1024x3072 [1, 0] w h2)) h3
        = shapeCast S8x3x16x1024x64 (Cert.Spec.qkv x w) h4)
    (x : S8x1024x1024.Idx → EReal) (w : S3072x1024.Idx → EReal) (off : Fin 5 → Nat)
    (h : S8x3x16x1024x64.Slices off S8x1x16x1024x64) :
    Fold.part (F := Ideal) (projected x w) off h
      = shapeCast S8x16x1024x64 (extractStridedSlice S8x1x16x1024x64 off
          (Cert.ReferenceIdeal.Read.val_main_v1 (F := Ideal) x w) h) shapeCasts_S8x1x16x1024x64_S8x16x1024x64 := by
  unfold Fold.part projected
  rw [hq x w _ _ _ Cert.ReferenceIdeal.Gen.shapeCasts_S8x1024x3072_S8x3x16x1024x64, ← Cert.ReferenceIdeal.RefRead.v0_eq]
  rfl

/-- The kernel program's result is the reference's, given the two reshaping facts about the projections. -/
theorem kernelTerm_eq_ref
    (hq : ∀ (x : S8x1024x1024.Idx → EReal) (w : S3072x1024.Idx → EReal)
      (h1 : S8x1024x1024.ShapeCasts S8192x1024) (h2 : S3072x1024.Transposes [1, 0] S1024x3072)
      (h3 : S8192x3072.ShapeCasts S8x3x16x1024x64) (h4 : (⟨3, ![8, 1024, 3072]⟩ : Shape).ShapeCasts S8x3x16x1024x64),
      shapeCast S8x3x16x1024x64 (Cert.Spec.proj (shapeCast S8192x1024 x h1) (transpose S1024x3072 [1, 0] w h2)) h3
        = shapeCast S8x3x16x1024x64 (Cert.Spec.qkv x w) h4)
    (ho : ∀ (y : S8x1024x1024.Idx → EReal) (w : S1024x1024.Idx → EReal) (β : S1024.Idx → EReal)
      (h1 : S8x1024x1024.ShapeCasts S8192x1024) (h2 : S1024x1024.Transposes [1, 0] S1024x1024)
      (h3 : S1024.ShapeCasts S1x1024) (h4 : S8192x1024.ShapeCasts S8x1024x1024),
      shapeCast S8x1024x1024 (Cert.Spec.projBias (shapeCast S8192x1024 y h1) (transpose S1024x1024 [1, 0] w h2) (shapeCast S1x1024 β h3)) h4
        = Cert.Spec.outProj y w β)
    (x : S8x1024x1024.Idx → EReal) (w : S3072x1024.Idx → EReal) (wo : S1024x1024.Idx → EReal) (bo : S1024.Idx → EReal) :
    kernelTerm x w wo bo = Cert.ReferenceIdeal.Read.val_main_v28 (F := Ideal) x w wo bo := by
  have ha : attended x w = Cert.ReferenceIdeal.Read.val_main_v24 (F := Ideal) x w := by
    rw [Cert.ReferenceIdeal.RefRead.v24_eq]
    unfold attended
    rw [part_eq hq, part_eq hq, part_eq hq]
    rfl
  unfold kernelTerm
  rw [ho, ha, Cert.ReferenceIdeal.RefRead.v28_eq]

end Cert.KernelIdeal.KernelValue

end
-- ==== Proof.lean ====
/-
  Softmax attention between two projections, as three pipelined regions, against its jnp reference: the two
  idealized programs end with equal results on the extended reals.

  From the input x (8 batches of 1024 positions by 1024 features), the weights w_qkv (3072 x 1024) and w_out
  (1024 x 1024) and the bias b_out, both programs compute
    the projection   P[b, n, e] = ∑ₖ x[b, n, k] · w_qkv[e, k],
    its raw reshape to batch x {q, k, v} x head x position x lane, cut into the three per-head arrays q, k, v,
    per head         softmax (q kᵀ / 8) · v, the sixteen heads laid side by side along the feature axis,
    the result       ∑ₖ A[b, n, k] · w_out[e, k] + b_out[e].
  The kernel takes the two projections as matrix products of the flattened 8192 rows against the transposed weights,
  tiled in blocks of 512 rows, and attention two heads per grid point into a 128-column block of the output; its
  changes of float format are the identity on the extended reals. One difference is not layout: the kernel multiplies the
  queries by one eighth before the scores are taken, the reference multiplies the scores. One eighth is a nonnegative
  real, and a nonnegative real distributes over every sum of extended reals, infinite terms included, so the two scores
  are one number and the precondition is never opened. The rest of the softmax is the same chain of operations on both
  sides (the reference's extra maximum with −∞ is the identity).

  The parts: `Spec` states the mathematics once; `RegionProj`, `RegionAttArray` (over `AttBody`, `RegionAtt` and `RegionAttCover`)
  and `RegionOut` show that each region leaves in its output array one function of the arrays it finds; `Fold` reads
  the host operations between the regions; `KernelRun` is the run of the kernel program with its result named, and
  `KernelValue` walks that result back to one term of the four arguments and joins it to the reference's, read index
  by index in `RefRead`.
-/
import proofs.«102136_j2851858284976_2_alg».proof.Defs
import proofs.«102136_j2851858284976_2_alg».proof.Proof.Gen.Kernel
import proofs.«102136_j2851858284976_2_alg».proof.Proof.Gen.Kernel.Skeleton
import proofs.«102136_j2851858284976_2_alg».proof.Proof.Gen.Kernel.Launch
import proofs.«102136_j2851858284976_2_alg».proof.Proof.Gen.Kernel.Points
import proofs.«102136_j2851858284976_2_alg».proof.Proof.Gen.Kernel.Frame
import proofs.«102136_j2851858284976_2_alg».proof.Proof.Gen.KernelIdeal
import proofs.«102136_j2851858284976_2_alg».proof.Proof.Gen.KernelIdeal.Skeleton
import proofs.«102136_j2851858284976_2_alg».proof.Proof.Gen.KernelIdeal.Launch
import proofs.«102136_j2851858284976_2_alg».proof.Proof.Gen.KernelIdeal.Points
import proofs.«102136_j2851858284976_2_alg».proof.Proof.Gen.KernelIdeal.Frame
import proofs.«102136_j2851858284976_2_alg».proof.Proof.Gen.ReferenceIdeal
import proofs.«102136_j2851858284976_2_alg».proof.Proof.Gen.Pre_finite_inputs
import proofs.«102136_j2851858284976_2_alg».proof.Proof.Gen.ReferenceIdeal.Run
import proofs.«102136_j2851858284976_2_alg».proof.Proof.Gen.ReferenceIdeal.Read
import proofs.«102136_j2851858284976_2_alg».proof.Proof.Spec
import proofs.«102136_j2851858284976_2_alg».proof.Proof.Fold
import proofs.«102136_j2851858284976_2_alg».proof.Proof.KernelRun
import proofs.«102136_j2851858284976_2_alg».proof.Proof.AttBody
import proofs.«102136_j2851858284976_2_alg».proof.Proof.RegionProj
import proofs.«102136_j2851858284976_2_alg».proof.Proof.RegionAttCover
import proofs.«102136_j2851858284976_2_alg».proof.Proof.RegionAtt
import proofs.«102136_j2851858284976_2_alg».proof.Proof.RegionAttArray
import proofs.«102136_j2851858284976_2_alg».proof.Proof.RegionOut
import proofs.«102136_j2851858284976_2_alg».proof.Proof.RefRead
import proofs.«102136_j2851858284976_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the four arguments both programs end at one function of them: the kernel's result walked
    back through its regions and host operations, and the reference's composed term, are equal index by index. -/
theorem algebraic : Cert.algebraic_KernelIdeal_ReferenceIdeal := by
  intro m ρ m' ρ' _ hagree
  refine ⟨fun c => Cert.KernelIdeal.KernelValue.kernelTerm
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.KernelValue.result
          (fun V c => Cert.KernelIdeal.RegionProj.final V c) (fun V c => Cert.KernelIdeal.RegionAtt.final V c)
          (fun V c => Cert.KernelIdeal.RegionOut.final V c) m ρ c), (h c).2⟩)
      (Cert.KernelIdeal.KernelRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v28_eq, (hagree c).1, (hagree c).2.1, (hagree c).2.2.1, (hagree c).2.2.2]
    exact (Cert.KernelIdeal.KernelValue.kernelTerm_eq_ref Cert.KernelIdeal.RegionProj.qkv_layout
      Cert.KernelIdeal.RegionOut.out_layout _ _ _ _).symm

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
